-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)) →
    ∃ (v0 : (c : Dev Cert.KernelIdeal.nD) → Buf (Elt Ideal) ((c.tc : Thread Cert.KernelIdeal.nD Cert.KernelIdeal.τ).loc Cert.KernelIdeal.main_v68)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v68) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v96) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S2x1600000 : Shape := ⟨2, ![2, 1600000]⟩
abbrev S100000 : Shape := ⟨1, ![100000]⟩
abbrev S64x128 : Shape := ⟨2, ![64, 128]⟩
abbrev S128 : Shape := ⟨1, ![128]⟩
abbrev S128x128 : Shape := ⟨2, ![128, 128]⟩
abbrev S128x16 : Shape := ⟨2, ![128, 16]⟩
abbrev S16 : Shape := ⟨1, ![16]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S64x128 : S_.BroadcastsInDim S64x128 (![] : Fin 0 → Fin S64x128.rank)
  reducesTo_S64x128_S_d0_1 : S64x128.ReducesTo [0, 1] S_
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_
  bcast_S_S128x16 : S_.BroadcastsInDim S128x16 (![] : Fin 0 → Fin S128x16.rank)
  reducesTo_S128x16_S_d0_1 : S128x16.ReducesTo [0, 1] S_
  bcast_S_S16 : S_.BroadcastsInDim S16 (![] : Fin 0 → Fin S16.rank)
  reducesTo_S16_S_d0 : S16.ReducesTo [0] S_

variable [Facts]

def fn_part3 {F : FTy → Type} [FloatOps F] (main_arg13 : FVec F S16 .f32) (main_v48 : IVec S_ 1) (main_v49 : FVec F S128x16 .f32) (main_v50 : FVec F S128x16 .f32) : IVec S_ 1 :=
  let main_v51 : IVec S128x16 1 := cmpf .olt main_v49 main_v50
  let main_c_19 : IVec S_ 1 := constantI S_ 1 1#1
  let main_v52 : IVec S_ 1 := (fun x v => Host.reduce IntOp.andi x v reducesTo_S128x16_S_d0_1 h_S_) main_v51 main_c_19
  let main_v53 : IVec S_ 1 := andi main_v48 main_v52
  let main_v54 : FVec F S16 .f32 := Host.absf main_arg13
  let main_cst_20 : FVec F S_ .f32 := constant S_ .f32 0x7F800000#32
  let main_v55 : FVec F S16 .f32 := broadcastInDim S16 ![] bcast_S_S16 main_cst_20
  let main_v56 : IVec S16 1 := cmpf .olt main_v54 main_v55
  let main_c_21 : IVec S_ 1 := constantI S_ 1 1#1
  let main_v57 : IVec S_ 1 := (fun x v => Host.reduce IntOp.andi x v reducesTo_S16_S_d0 h_S_) main_v56 main_c_21
  let main_v58 : IVec S_ 1 := andi main_v53 main_v57
  main_v58

def fn_part2 {F : FTy → Type} [FloatOps F] (main_arg9 : FVec F S128x128 .f32) (main_arg10 : FVec F S128 .f32) (main_arg11 : FVec F S128x128 .f32) (main_arg12 : FVec F S128x16 .f32) (main_arg13 : FVec F S16 .f32) (main_v33 : IVec S_ 1) : IVec S_ 1 :=
  let main_v34 : FVec F S128x128 .f32 := Host.absf main_arg9
  let main_cst_12 : FVec F S_ .f32 := constant S_ .f32 0x7F800000#32
  let main_v35 : FVec F S128x128 .f32 := broadcastInDim S128x128 ![] bcast_S_S128x128 main_cst_12
  let main_v36 : IVec S128x128 1 := cmpf .olt main_v34 main_v35
  let main_c_13 : IVec S_ 1 := constantI S_ 1 1#1
  let main_v37 : IVec S_ 1 := (fun x v => Host.reduce IntOp.andi x v reducesTo_S128x128_S_d0_1 h_S_) main_v36 main_c_13
  let main_v38 : IVec S_ 1 := andi main_v33 main_v37
  let main_v39 : FVec F S128 .f32 := Host.absf main_arg10
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  let main_v44 : FVec F S128x128 .f32 := Host.absf main_arg11
  let main_cst_16 : FVec F S_ .f32 := constant S_ .f32 0x7F800000#32
  let main_v45 : FVec F S128x128 .f32 := broadcastInDim S128x128 ![] bcast_S_S128x128 main_cst_16
  let main_v46 : IVec S128x128 1 := cmpf .olt main_v44 main_v45
  let main_c_17 : IVec S_ 1 := constantI S_ 1 1#1
  let main_v47 : IVec S_ 1 := (fun x v => Host.reduce IntOp.andi x v reducesTo_S128x128_S_d0_1 h_S_) main_v46 main_c_17
  let main_v48 : IVec S_ 1 := andi main_v43 main_v47
  let main_v49 : FVec F S128x16 .f32 := Host.absf main_arg12
  let main_cst_18 : FVec F S_ .f32 := constant S_ .f32 0x7F800000#32
  let main_v50 : FVec F S128x16 .f32 := broadcastInDim S128x16 ![] bcast_S_S128x16 main_cst_18
  fn_part3 (F := F) main_arg13 main_v48 main_v49 main_v50

def fn_part1 {F : FTy → Type} [FloatOps F] (main_arg6 : FVec F S128x128 .f32) (main_arg7 : FVec F S128 .f32) (main_arg8 : FVec F S128x128 .f32) (main_arg9 : FVec F S128x128 .f32) (main_arg10 : FVec F S128 .f32) (main_arg11 : FVec F S128x128 .f32) (main_arg12 : FVec F S128x16 .f32) (main_arg13 : FVec F S16 .f32) (main_v13 : IVec S_ 1) (main_v16 : IVec S64x128 1) : IVec S_ 1 :=
  let main_c_5 : IVec S_ 1 := constantI S_ 1 1#1
  let main_v17 : IVec S_ 1 := (fun x v => Host.reduce IntOp.andi x v reducesTo_S64x128_S_d0_1 h_S_) main_v16 main_c_5
  let main_v18 : IVec S_ 1 := andi main_v13 main_v17
  let main_v19 : FVec F S128x128 .f32 := Host.absf main_arg6
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg7
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128x128 .f32 := Host.absf main_arg8
  let main_cst_10 : FVec F S_ .f32 := constant S_ .f32 0x7F800000#32
  let main_v30 : FVec F S128x128 .f32 := broadcastInDim S128x128 ![] bcast_S_S128x128 main_cst_10
  let main_v31 : IVec S128x128 1 := cmpf .olt main_v29 main_v30
  let main_c_11 : IVec S_ 1 := constantI S_ 1 1#1
  let main_v32 : IVec S_ 1 := (fun x v => Host.reduce IntOp.andi x v reducesTo_S128x128_S_d0_1 h_S_) main_v31 main_c_11
  let main_v33 : IVec S_ 1 := andi main_v28 main_v32
  fn_part2 (F := F) main_arg9 main_arg10 main_arg11 main_arg12 main_arg13 main_v33

def fn {F : FTy → Type} [FloatOps F] (main_arg0 : FVec F S100000x64 .f32) (main_arg1 : IVec S2x1600000 32) (main_arg2 : IVec S100000 32) (main_arg3 : FVec F S64x128 .f32) (main_arg4 : FVec F S128 .f32) (main_arg5 : FVec F S64x128 .f32) (main_arg6 : FVec F S128x128 .f32) (main_arg7 : FVec F S128 .f32) (main_arg8 : FVec F S128x128 .f32) (main_arg9 : FVec F S128x128 .f32) (main_arg10 : FVec F S128 .f32) (main_arg11 : FVec F S128x128 .f32) (main_arg12 : FVec F S128x16 .f32) (main_arg13 : FVec F S16 .f32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S64x128 .f32 := Host.absf main_arg3
  let main_cst_0 : FVec F S_ .f32 := constant S_ .f32 0x7F800000#32
  let main_v5 : FVec F S64x128 .f32 := broadcastInDim S64x128 ![] bcast_S_S64x128 main_cst_0
  let main_v6 : IVec S64x128 1 := cmpf .olt main_v4 main_v5
  let main_c_1 : IVec S_ 1 := constantI S_ 1 1#1
  let main_v7 : IVec S_ 1 := (fun x v => Host.reduce IntOp.andi x v reducesTo_S64x128_S_d0_1 h_S_) main_v6 main_c_1
  let main_v8 : IVec S_ 1 := andi main_v3 main_v7
  let main_v9 : FVec F S128 .f32 := Host.absf main_arg4
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S64x128 .f32 := Host.absf main_arg5
  let main_cst_4 : FVec F S_ .f32 := constant S_ .f32 0x7F800000#32
  let main_v15 : FVec F S64x128 .f32 := broadcastInDim S64x128 ![] bcast_S_S64x128 main_cst_4
  let main_v16 : IVec S64x128 1 := cmpf .olt main_v14 main_v15
  fn_part1 (F := F) main_arg6 main_arg7 main_arg8 main_arg9 main_arg10 main_arg11 main_arg12 main_arg13 main_v13 main_v16
-- ==== Kernel.lean ====
abbrev S100000x64 : Shape := ⟨2, ![100000, 64]⟩
abbrev S2x1600000 : Shape := ⟨2, ![2, 1600000]⟩
abbrev S100000 : Shape := ⟨1, ![100000]⟩
abbrev S64x128 : Shape := ⟨2, ![64, 128]⟩
abbrev S128 : Shape := ⟨1, ![128]⟩
abbrev S128x128 : Shape := ⟨2, ![128, 128]⟩
abbrev S128x16 : Shape := ⟨2, ![128, 16]⟩
abbrev S16 : Shape := ⟨1, ![16]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S100000x1 : Shape := ⟨2, ![100000, 1]⟩
abbrev S1600000x64 : Shape := ⟨2, ![1600000, 64]⟩
abbrev S1x128 : Shape := ⟨2, ![1, 128]⟩
abbrev S100000x128 : Shape := ⟨2, ![100000, 128]⟩
abbrev S5000x64 : Shape := ⟨2, ![5000, 64]⟩
abbrev S5000x128 : Shape := ⟨2, ![5000, 128]⟩
abbrev S1600000x128 : Shape := ⟨2, ![1600000, 128]⟩
abbrev S512x128 : Shape := ⟨2, ![512, 128]⟩
abbrev S512 : Shape := ⟨1, ![512]⟩
abbrev S512x1 : Shape := ⟨2, ![512, 1]⟩
abbrev S1x16 : Shape := ⟨2, ![1, 16]⟩
abbrev S512x16 : Shape := ⟨2, ![512, 16]⟩

abbrev nBuf : Space → Nat
  | .hbm => 100
  | .vmem => 31
  | .smem => 0
  | _ => 0

abbrev bufTy : (tb : Table) → Fin (tcTables nBuf tb) → BufTy
  | .hbm, ⟨0, _⟩ => ⟨S100000x64, .f32⟩
  | .hbm, ⟨1, _⟩ => ⟨S2x1600000, .i32⟩
  | .hbm, ⟨2, _⟩ => ⟨S100000, .i32⟩
  | .hbm, ⟨3, _⟩ => ⟨S64x128, .f32⟩
  | .hbm, ⟨4, _⟩ => ⟨S128, .f32⟩
  | .hbm, ⟨5, _⟩ => ⟨S64x128, .f32⟩
  | .hbm, ⟨6, _⟩ => ⟨S128x128, .f32⟩
  | .hbm, ⟨7, _⟩ => ⟨S128, .f32⟩
  | .hbm, ⟨8, _⟩ => ⟨S128x128, .f32⟩
  | .hbm, ⟨9, _⟩ => ⟨S128x128, .f32⟩
  | .hbm, ⟨10, _⟩ => ⟨S128, .f32⟩
  | .hbm, ⟨11, _⟩ => ⟨S128x128, .f32⟩
  | .hbm, ⟨12, _⟩ => ⟨S128x16, .f32⟩
  | .hbm, ⟨13, _⟩ => ⟨S16, .f32⟩
  | .hbm, ⟨14, _⟩ => ⟨S1x1600000, .i32⟩
  | .hbm, ⟨15, _⟩ => ⟨S1600000, .i32⟩
  | .hbm, ⟨16, _⟩ => ⟨S1x1600000, .i32⟩
  | .hbm, ⟨17, _⟩ => ⟨S1600000, .i32⟩
  | .hbm, ⟨18, _⟩ => ⟨S_, .f32⟩
  | .hbm, ⟨19, _⟩ => ⟨S1600000, .f32⟩
  | .hbm, ⟨20, _⟩ => ⟨S_, .f32⟩
  | .hbm, ⟨21, _⟩ => ⟨S100000, .f32⟩
  | .hbm, ⟨22, _⟩ => ⟨S1600000x1, .i32⟩
  | .hbm, ⟨23, _⟩ => ⟨S100000, .f32⟩
  | .hbm, ⟨24, _⟩ => ⟨S_, .f32⟩
  | .hbm, ⟨25, _⟩ => ⟨S100000, .f32⟩
  | .hbm, ⟨26, _⟩ => ⟨S100000, .f32⟩
  | .hbm, ⟨27, _⟩ => ⟨S_, .f32⟩
  | .hbm, ⟨28, _⟩ => ⟨S100000, .f32⟩
  | .hbm, ⟨29, _⟩ => ⟨S100000, .f32⟩
  | .hbm, ⟨30, _⟩ => ⟨S100000x1, .f32⟩
  | .hbm, ⟨31, _⟩ => ⟨S_, .i32⟩
  | .hbm, ⟨32, _⟩ => ⟨S1600000, .i32⟩
  | .hbm, ⟨33, _⟩ => ⟨S1600000, .i1⟩
  | .hbm, ⟨34, _⟩ => ⟨S_, .i32⟩
  | .hbm, ⟨35, _⟩ => ⟨S1600000, .i32⟩
  | .hbm, ⟨36, _⟩ => ⟨S1600000, .i32⟩
  | .hbm, ⟨37, _⟩ => ⟨S1600000, .i32⟩
  | .hbm, ⟨38, _⟩ => ⟨S1600000x1, .i32⟩
  | .hbm, ⟨39, _⟩ => ⟨S1600000x64, .f32⟩
  | .hbm, ⟨40, _⟩ => ⟨S_, .f32⟩
  | .hbm, ⟨41, _⟩ => ⟨S100000x64, .f32⟩
  | .hbm, ⟨42, _⟩ => ⟨S1600000x1, .i32⟩
  | .hbm, ⟨43, _⟩ => ⟨S100000x64, .f32⟩
  | .hbm, ⟨44, _⟩ => ⟨S100000x64, .f32⟩
  | .hbm, ⟨45, _⟩ => ⟨S100000x64, .f32⟩
  | .hbm, ⟨46, _⟩ => ⟨S1x128, .f32⟩
  | .hbm, ⟨47, _⟩ => ⟨S100000x128, .f32⟩
  | .hbm, ⟨48, _⟩ => ⟨S_, .i32⟩
  | .hbm, ⟨49, _⟩ => ⟨S1600000, .i32⟩
  | .hbm, ⟨50, _⟩ => ⟨S1600000, .i1⟩
  | .hbm, ⟨51, _⟩ => ⟨S_, .i32⟩
  | .hbm, ⟨52, _⟩ => ⟨S1600000, .i32⟩
  | .hbm, ⟨53, _⟩ => ⟨S1600000, .i32⟩
  | .hbm, ⟨54, _⟩ => ⟨S1600000, .i32⟩
  | .hbm, ⟨55, _⟩ => ⟨S1600000x1, .i32⟩
  | .hbm, ⟨56, _⟩ => ⟨S1600000x128, .f32⟩
  | .hbm, ⟨57, _⟩ => ⟨S_, .f32⟩
  | .hbm, ⟨58, _⟩ => ⟨S100000x128, .f32⟩
  | .hbm, ⟨59, _⟩ => ⟨S1600000x1, .i32⟩
  | .hbm, ⟨60, _⟩ => ⟨S100000x128, .f32⟩
  | .hbm, ⟨61, _⟩ => ⟨S100000x128, .f32⟩
  | .hbm, ⟨62, _⟩ => ⟨S100000x128, .f32⟩
  | .hbm, ⟨63, _⟩ => ⟨S1x128, .f32⟩
  | .hbm, ⟨64, _⟩ => ⟨S100000x128, .f32⟩
  | .hbm, ⟨65, _⟩ => ⟨S_, .i32⟩
  | .hbm, ⟨66, _⟩ => ⟨S1600000, .i32⟩
  | .hbm, ⟨67, _⟩ => ⟨S1600000, .i1⟩
  | .hbm, ⟨68, _⟩ => ⟨S_, .i32⟩
  | .hbm, ⟨69, _⟩ => ⟨S1600000, .i32⟩
  | .hbm, ⟨70, _⟩ => ⟨S1600000, .i32⟩
  | .hbm, ⟨71, _⟩ => ⟨S1600000, .i32⟩
  | .hbm, ⟨72, _⟩ => ⟨S1600000x1, .i32⟩
  | .hbm, ⟨73, _⟩ => ⟨S1600000x128, .f32⟩
  | .hbm, ⟨74, _⟩ => ⟨S_, .f32⟩
  | .hbm, ⟨75, _⟩ => ⟨S100000x128, .f32⟩
  | .hbm, ⟨76, _⟩ => ⟨S1600000x1, .i32⟩
  | .hbm, ⟨77, _⟩ => ⟨S100000x128, .f32⟩
  | .hbm, ⟨78, _⟩ => ⟨S100000x128, .f32⟩
  | .hbm, ⟨79, _⟩ => ⟨S100000x128, .f32⟩
  | .hbm, ⟨80, _⟩ => ⟨S1x128, .f32⟩
  | .hbm, ⟨81, _⟩ => ⟨S100000x128, .f32⟩
  | .hbm, ⟨82, _⟩ => ⟨S_, .f32⟩
  | .hbm, ⟨83, _⟩ => ⟨S512x128, .f32⟩
  | .hbm, ⟨84, _⟩ => ⟨S100000x1, .i32⟩
  | .hbm, ⟨85, _⟩ => ⟨S512x128, .f32⟩
  | .hbm, ⟨86, _⟩ => ⟨S_, .f32⟩
  | .hbm, ⟨87, _⟩ => ⟨S100000, .f32⟩
  | .hbm, ⟨88, _⟩ => ⟨S_, .f32⟩
  | .hbm, ⟨89, _⟩ => ⟨S512, .f32⟩
  | .hbm, ⟨90, _⟩ => ⟨S100000x1, .i32⟩
  | .hbm, ⟨91, _⟩ => ⟨S512, .f32⟩
  | .hbm, ⟨92, _⟩ => ⟨S_, .f32⟩
  | .hbm, ⟨93, _⟩ => ⟨S512, .f32⟩
  | .hbm, ⟨94, _⟩ => ⟨S512, .f32⟩
  | .hbm, ⟨95, _⟩ => ⟨S512x1, .f32⟩
  | .hbm, ⟨96, _⟩ => ⟨S512x128, .f32⟩
  | .hbm, ⟨97, _⟩ => ⟨S512x128, .f32⟩
  | .hbm, ⟨98, _⟩ => ⟨S1x16, .f32⟩
  | .hbm, ⟨99, _⟩ => ⟨S512x16, .f32⟩
  | .local _ .vmem, ⟨0, _⟩ => ⟨S5000x64, .f32⟩
  | .local _ .vmem, ⟨1, _⟩ => ⟨S5000x64, .f32⟩
  | .local _ .vmem, ⟨2, _⟩ => ⟨S5000x64, .f32⟩
  | .local _ .vmem, ⟨3, _⟩ => ⟨S5000x64, .f32⟩
  | .local _ .vmem, ⟨4, _⟩ => ⟨S64x128, .f32⟩
  | .local _ .vmem, ⟨5, _⟩ => ⟨S1x128, .f32⟩
  | .local _ .vmem, ⟨6, _⟩ => ⟨S64x128, .f32⟩
  | .local _ .vmem, ⟨7, _⟩ => ⟨S5000x128, .f32⟩
  | .local _ .vmem, ⟨8, _⟩ => ⟨S5000x128, .f32⟩
  | .local _ .vmem, ⟨9, _⟩ => ⟨S5000x128, .f32⟩
  | .local _ .vmem, ⟨10, _⟩ => ⟨S5000x128, .f32⟩
  | .local _ .vmem, ⟨11, _⟩ => ⟨S5000x128, .f32⟩
  | .local _ .vmem, ⟨12, _⟩ => ⟨S5000x128, .f32⟩
  | .local _ .vmem, ⟨13, _⟩ => ⟨S128x128, .f32⟩
  | .local _ .vmem, ⟨14, _⟩ => ⟨S1x128, .f32⟩
  | .local _ .vmem, ⟨15, _⟩ => ⟨S128x128, .f32⟩
  | .local _ .vmem, ⟨16, _⟩ => ⟨S5000x128, .f32⟩
  | .local _ .vmem, ⟨17, _⟩ => ⟨S5000x128, .f32⟩
  | .local _ .vmem, ⟨18, _⟩ => ⟨S5000x128, .f32⟩
  | .local _ .vmem, ⟨19, _⟩ => ⟨S5000x128, .f32⟩
  | .local _ .vmem, ⟨20, _⟩ => ⟨S5000x128, .f32⟩
  | .local _ .vmem, ⟨21, _⟩ => ⟨S5000x128, .f32⟩
  | .local _ .vmem, ⟨22, _⟩ => ⟨S128x128, .f32⟩
  | .local _ .vmem, ⟨23, _⟩ => ⟨S1x128, .f32⟩
  | .local _ .vmem, ⟨24, _⟩ => ⟨S128x128, .f32⟩
  | .local _ .vmem, ⟨25, _⟩ => ⟨S5000x128, .f32⟩
  | .local _ .vmem, ⟨26, _⟩ => ⟨S5000x128, .f32⟩
  | .local _ .vmem, ⟨27, _⟩ => ⟨S512x128, .f32⟩
  | .local _ .vmem, ⟨28, _⟩ => ⟨S128x16, .f32⟩
  | .local _ .vmem, ⟨29, _⟩ => ⟨S1x16, .f32⟩
  | .local _ .vmem, ⟨30, _⟩ => ⟨S512x16, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | _, _ => false

abbrev semScoped : Fin 0 → Bool
  | ⟨_, h⟩ => absurd h (Nat.not_lt_zero _)

abbrev dmaSemScoped : Fin 31 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | _ => false

abbrev sig : RefSig :=
  ofTc nBuf bufTy 0 31 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_cst : Ref sig .tc := ⟨.hbm, 18, rfl⟩
abbrev main_v4 : Ref sig .tc := ⟨.hbm, 19, rfl⟩
abbrev main_cst_0 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_cst_1 : Ref sig .tc := ⟨.hbm, 24, rfl⟩
abbrev main_v8 : Ref sig .tc := ⟨.hbm, 25, rfl⟩
abbrev main_v9 : Ref sig .tc := ⟨.hbm, 26, rfl⟩
abbrev main_cst_2 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_c : Ref sig .tc := ⟨.hbm, 31, rfl⟩
abbrev main_v13 : Ref sig .tc := ⟨.hbm, 32, rfl⟩
abbrev main_v14 : Ref sig .tc := ⟨.hbm, 33, rfl⟩
abbrev main_c_3 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_cst_4 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_c_5 : Ref sig .tc := ⟨.hbm, 48, rfl⟩
abbrev main_v27 : Ref sig .tc := ⟨.hbm, 49, rfl⟩
abbrev main_v28 : Ref sig .tc := ⟨.hbm, 50, rfl⟩
abbrev main_c_6 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_cst_7 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_c_8 : Ref sig .tc := ⟨.hbm, 65, rfl⟩
abbrev main_v41 : Ref sig .tc := ⟨.hbm, 66, rfl⟩
abbrev main_v42 : Ref sig .tc := ⟨.hbm, 67, rfl⟩
abbrev main_c_9 : Ref sig .tc := ⟨.hbm, 68, rfl⟩
abbrev main_v43 : Ref sig .tc := ⟨.hbm, 69, rfl⟩
abbrev main_v44 : Ref sig .tc := ⟨.hbm, 70, rfl⟩
abbrev main_v45 : Ref sig .tc := ⟨.hbm, 71, rfl⟩
abbrev main_v46 : Ref sig .tc := ⟨.hbm, 72, rfl⟩
abbrev main_v47 : Ref sig .tc := ⟨.hbm, 73, rfl⟩
abbrev main_cst_10 : Ref sig .tc := ⟨.hbm, 74, rfl⟩
abbrev main_v48 : Ref sig .tc := ⟨.hbm, 75, rfl⟩
abbrev main_v49 : Ref sig .tc := ⟨.hbm, 76, rfl⟩
abbrev main_v50 : Ref sig .tc := ⟨.hbm, 77, rfl⟩
abbrev main_v51 : Ref sig .tc := ⟨.hbm, 78, rfl⟩
abbrev main_v52 : Ref sig .tc := ⟨.hbm, 79, rfl⟩
abbrev main_v53 : Ref sig .tc := ⟨.hbm, 80, rfl⟩
abbrev main_v54 : Ref sig .tc := ⟨.hbm, 81, rfl⟩
abbrev main_cst_11 : Ref sig .tc := ⟨.hbm, 82, rfl⟩
abbrev main_v55 : Ref sig .tc := ⟨.hbm, 83, rfl⟩
abbrev main_v56 : Ref sig .tc := ⟨.hbm, 84, rfl⟩
abbrev main_v57 : Ref sig .tc := ⟨.hbm, 85, rfl⟩
abbrev main_cst_12 : Ref sig .tc := ⟨.hbm, 86, rfl⟩
abbrev main_v58 : Ref sig .tc := ⟨.hbm, 87, rfl⟩
abbrev main_cst_13 : Ref sig .tc := ⟨.hbm, 88, rfl⟩
abbrev main_v59 : Ref sig .tc := ⟨.hbm, 89, rfl⟩
abbrev main_v60 : Ref sig .tc := ⟨.hbm, 90, rfl⟩
abbrev main_v61 : Ref sig .tc := ⟨.hbm, 91, rfl⟩
abbrev main_cst_14 : Ref sig .tc := ⟨.hbm, 92, rfl⟩
abbrev main_v62 : Ref sig .tc := ⟨.hbm, 93, rfl⟩
abbrev main_v63 : Ref sig .tc := ⟨.hbm, 94, rfl⟩
abbrev main_v64 : Ref sig .tc := ⟨.hbm, 95, rfl⟩
abbrev main_v65 : Ref sig .tc := ⟨.hbm, 96, rfl⟩
abbrev main_v66 : Ref sig .tc := ⟨.hbm, 97, rfl⟩
abbrev main_v67 : Ref sig .tc := ⟨.hbm, 98, rfl⟩
abbrev main_v68 : Ref sig .tc := ⟨.hbm, 99, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg5_1 : Ref sig .tc := ⟨.vmem, 17, rfl⟩
abbrev cc2_stg0_0 : Ref sig .tc := ⟨.vmem, 18, rfl⟩
abbrev cc2_stg0_1 : Ref sig .tc := ⟨.vmem, 19, rfl⟩
abbrev cc2_stg1_0 : Ref sig .tc := ⟨.vmem, 20, rfl⟩
abbrev cc2_stg1_1 : Ref sig .tc := ⟨.vmem, 21, rfl⟩
abbrev cc2_stg2_0 : Ref sig .tc := ⟨.vmem, 22, rfl⟩
abbrev cc2_stg3_0 : Ref sig .tc := ⟨.vmem, 23, rfl⟩
abbrev cc2_stg4_0 : Ref sig .tc := ⟨.vmem, 24, rfl⟩
abbrev cc2_stg5_0 : Ref sig .tc := ⟨.vmem, 25, rfl⟩
abbrev cc2_stg5_1 : Ref sig .tc := ⟨.vmem, 26, rfl⟩
abbrev cc3_stg0_0 : Ref sig .tc := ⟨.vmem, 27, rfl⟩
abbrev cc3_stg1_0 : Ref sig .tc := ⟨.vmem, 28, rfl⟩
abbrev cc3_stg2_0 : Ref sig .tc := ⟨.vmem, 29, rfl⟩
abbrev cc3_stg3_0 : Ref sig .tc := ⟨.vmem, 30, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem5_1 : DmaSem sig := 17
abbrev cc2_sem0_0 : DmaSem sig := 18
abbrev cc2_sem0_1 : DmaSem sig := 19
abbrev cc2_sem1_0 : DmaSem sig := 20
abbrev cc2_sem1_1 : DmaSem sig := 21
abbrev cc2_sem2_0 : DmaSem sig := 22
abbrev cc2_sem3_0 : DmaSem sig := 23
abbrev cc2_sem4_0 : DmaSem sig := 24
abbrev cc2_sem5_0 : DmaSem sig := 25
abbrev cc2_sem5_1 : DmaSem sig := 26
abbrev cc3_sem0_0 : DmaSem sig := 27
abbrev cc3_sem1_0 : DmaSem sig := 28
abbrev cc3_sem2_0 : DmaSem sig := 29
abbrev cc3_sem3_0 : DmaSem sig := 30

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S64x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S64x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S5000x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S5000x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S128x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S128x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S5000x128 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev grid3 : Pipeline.Grid := ⟨1, ![1], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage3_0 : Fin 1 → Memref sig .tc .vmem S512x128 .f32 := fun | 0 => Memref.whole cc3_stg0_0 | ⟨_ + 1, h⟩ => absurd h (Nat.not_lt.2 (Nat.le_add_left _ _))
abbrev sem3_0 : Fin 1 → DmaSem sig := fun | 0 => cc3_sem0_0 | ⟨_ + 1, h⟩ => absurd h (Nat.not_lt.2 (Nat.le_add_left _ _))
abbrev reads3_0 : Fin grid3.rank → Bool := ![false]

abbrev stage3_1 : Fin 1 → Memref sig .tc .vmem S128x16 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x16 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S512x16 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S100000_S100000x1_0 : S100000.BroadcastsInDim S100000x1 (![0] : Fin 1 → Fin S100000x1.rank)
  bcast_S_S100000x64 : S_.BroadcastsInDim S100000x64 (![] : Fin 0 → Fin S100000x64.rank)
  bcast_S100000x1_S100000x64_0_1 : S100000x1.BroadcastsInDim S100000x64 (![0, 1] : Fin 2 → Fin S100000x64.rank)
  shapeCasts_S128_S1x128 : S128.ShapeCasts S1x128
  inb_S5000x64_S5000x64_0_0 : ∀ a, (![0, 0] : Fin 2 → Nat) a + S5000x64.size a ≤ S5000x64.size a
  h_S5000x64 : 0 < S5000x64.numel
  shapeCasts_S5000x64_S5000x64 : S5000x64.ShapeCasts S5000x64
  bitsLt_bf16_f32 : FTy.bits .bf16 < FTy.bits .f32
  inb_S64x128_S64x128_0_0 : ∀ a, (![0, 0] : Fin 2 → Nat) a + S64x128.size a ≤ S64x128.size a
  h_S64x128 : 0 < S64x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  inb_S5000x128_S5000x128_0_0 : ∀ a, (![0, 0] : Fin 2 → Nat) a + S5000x128.size a ≤ S5000x128.size a
  h_S5000x128 : 0 < S5000x128.numel
  bcast_S_S100000x128 : S_.BroadcastsInDim S100000x128 (![] : Fin 0 → Fin S100000x128.rank)
  bcast_S100000x1_S100000x128_0_1 : S100000x1.BroadcastsInDim S100000x128 (![0, 1] : Fin 2 → Fin S100000x128.rank)
  shapeCasts_S5000x128_S5000x128 : S5000x128.ShapeCasts S5000x128
  inb_S128x128_S128x128_0_0 : ∀ a, (![0, 0] : Fin 2 → Nat) a + S128x128.size a ≤ S128x128.size a
  h_S128x128 : 0 < S128x128.numel
  bcast_S_S512x128 : S_.BroadcastsInDim S512x128 (![] : Fin 0 → Fin S512x128.rank)
  bcast_S_S512 : S_.BroadcastsInDim S512 (![] : Fin 0 → Fin S512.rank)
  bcast_S512_S512x1_0 : S512.BroadcastsInDim S512x1 (![0] : Fin 1 → Fin S512x1.rank)
  bcast_S512x1_S512x128_0_1 : S512x1.BroadcastsInDim S512x128 (![0, 1] : Fin 2 → Fin S512x128.rank)
  shapeCasts_S16_S1x16 : S16.ShapeCasts S1x16
  inb_S512x128_S512x128_0_0 : ∀ a, (![0, 0] : Fin 2 → Nat) a + S512x128.size a ≤ S512x128.size a
  h_S512x128 : 0 < S512x128.numel
  shapeCasts_S512x128_S512x128 : S512x128.ShapeCasts S512x128
  inb_S128x16_S128x16_0_0 : ∀ a, (![0, 0] : Fin 2 → Nat) a + S128x16.size a ≤ S128x16.size a
  h_S128x16 : 0 < S128x16.numel
  inb_S1x16_S1x16_0_0 : ∀ a, (![0, 0] : Fin 2 → Nat) a + S1x16.size a ≤ S1x16.size a
  h_S1x16 : 0 < S1x16.numel
  shapeCasts_S1x16_S1x16 : S1x16.ShapeCasts S1x16
  broadcasts_S1x16_S512x16 : S1x16.Broadcasts S512x16
  inb_S512x16_S512x16_0_0 : ∀ a, (![0, 0] : Fin 2 → Nat) a + S512x16.size a ≤ S512x16.size a
  h_S512x16 : 0 < S512x16.numel
  scatter_S100000_S1600000x1_S1600000_n_0_0_1_wf : ScatterDims.WF S100000 S1600000x1 S1600000 [] [0] [0] 1
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  dot_S5000x64_S64x128_S5000x128_1_0_0_1_n_n_wf : DotDims.WF S5000x64 S64x128 S5000x128 [1] [0] [0] [1] [] []
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S5000x128_S128x128_S5000x128_1_0_0_1_n_n_wf : DotDims.WF S5000x128 S128x128 S5000x128 [1] [0] [0] [1] [] []
  scatter_S512x128_S100000x1_S100000x128_1_0_0_1_wf : ScatterDims.WF S512x128 S100000x1 S100000x128 [1] [0] [0] 1
  scatter_S512_S100000x1_S100000_n_0_0_1_wf : ScatterDims.WF S512 S100000x1 S100000 [] [0] [0] 1
  dot_S512x128_S128x16_S512x16_1_0_0_1_n_n_wf : DotDims.WF S512x128 S128x16 S512x16 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x64.size a ≤ S100000x64.size a
  hwx0_0 : ∀ i : grid0.Coords, EltTy.bits .f32 = 32 ∨ (Rect.block (s := S100000x64) S5000x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x64.size a ≤ S100000x64.size a
  hwx0_1 : ∀ i : grid0.Coords, EltTy.bits .f32 = 32 ∨ (Rect.block (s := S100000x64) S5000x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64x128.size a ≤ S64x128.size a
  hwx0_2 : ∀ i : grid0.Coords, EltTy.bits .f32 = 32 ∨ (Rect.block (s := S64x128) S64x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x128.size a ≤ S1x128.size a
  hwx0_3 : ∀ i : grid0.Coords, EltTy.bits .f32 = 32 ∨ (Rect.block (s := S1x128) S1x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S64x128.size a ≤ S64x128.size a
  hwx0_4 : ∀ i : grid0.Coords, EltTy.bits .f32 = 32 ∨ (Rect.block (s := S64x128) S64x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S5000x128.size a ≤ S100000x128.size a
  hwx0_5 : ∀ i : grid0.Coords, EltTy.bits .f32 = 32 ∨ (Rect.block (s := S100000x128) S5000x128.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x128.size a ≤ S100000x128.size a
  hwx1_1 : ∀ i : grid1.Coords, EltTy.bits .f32 = 32 ∨ (Rect.block (s := S100000x128) S5000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .f32 = 32 ∨ (Rect.block (s := S128x128) S128x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128x128.size a ≤ S128x128.size a
  hwx1_4 : ∀ i : grid1.Coords, EltTy.bits .f32 = 32 ∨ (Rect.block (s := S128x128) S128x128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S5000x128.size a ≤ S100000x128.size a
  hwx1_5 : ∀ i : grid1.Coords, EltTy.bits .f32 = 32 ∨ (Rect.block (s := S100000x128) S5000x128.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S100000x128.size a
  hwx2_0 : ∀ i : grid2.Coords, EltTy.bits .f32 = 32 ∨ (Rect.block (s := S100000x128) S5000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x128.size a ≤ S100000x128.size a
  hwx2_1 : ∀ i : grid2.Coords, EltTy.bits .f32 = 32 ∨ (Rect.block (s := S100000x128) S5000x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S128x128.size a ≤ S128x128.size a
  hwx2_2 : ∀ i : grid2.Coords, EltTy.bits .f32 = 32 ∨ (Rect.block (s := S128x128) S128x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x128.size a ≤ S1x128.size a
  hwx2_3 : ∀ i : grid2.Coords, EltTy.bits .f32 = 32 ∨ (Rect.block (s := S1x128) S1x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S128x128.size a ≤ S128x128.size a
  hwx2_4 : ∀ i : grid2.Coords, EltTy.bits .f32 = 32 ∨ (Rect.block (s := S128x128) S128x128.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S5000x128.size a ≤ S100000x128.size a
  hwx2_5 : ∀ i : grid2.Coords, EltTy.bits .f32 = 32 ∨ (Rect.block (s := S100000x128) S5000x128.size (cc2_transform_5 i) (hinb2_5 i)).WholeWords (EltTy.packing .f32)
  hrank3 : 0 < grid3.rank
  hstage3_0 : ∀ j, (stage3_0 j).IsWhole
  nbuf3_0 : grid3.bufCount reads3_0 true = 1
  hreads3_0 : ∀ i i' : grid3.Coords, (∀ a, reads3_0 a = true → i a = i' a) → cc3_transform_0 i = cc3_transform_0 i'
  hinb3_0 : ∀ (i : grid3.Coords) a, (cc3_transform_0 i a + 1) * S512x128.size a ≤ S512x128.size a
  hwx3_0 : ∀ i : grid3.Coords, EltTy.bits .f32 = 32 ∨ (Rect.block (s := S512x128) S512x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S128x16.size a ≤ S128x16.size a
  hwx3_1 : ∀ i : grid3.Coords, EltTy.bits .f32 = 32 ∨ (Rect.block (s := S128x16) S128x16.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x16.size a ≤ S1x16.size a
  hwx3_2 : ∀ i : grid3.Coords, EltTy.bits .f32 = 32 ∨ (Rect.block (s := S1x16) S1x16.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S512x16.size a ≤ S512x16.size a
  hwx3_3 : ∀ i : grid3.Coords, EltTy.bits .f32 = 32 ∨ (Rect.block (s := S512x16) S512x16.size (cc3_transform_3 i) (hinb3_3 i)).WholeWords (EltTy.packing .f32)

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def dot_S5000x64_S64x128_S5000x128_1_0_0_1_n_n : DotDims S5000x64 S64x128 S5000x128 where
  lhsContracting := [1]
  rhsContracting := [0]
  lhsNonContracting := [0]
  rhsNonContracting := [1]
  lhsBatch := []
  rhsBatch := []
  wf := dot_S5000x64_S64x128_S5000x128_1_0_0_1_n_n_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def scatter_S512x128_S100000x1_S100000x128_1_0_0_1 : ScatterDims S512x128 S100000x1 S100000x128 where
  updateWindowDims := [1]
  insertedWindowDims := [0]
  scatterDimsToOperandDims := [0]
  indexVectorDim := 1
  wf := scatter_S512x128_S100000x1_S100000x128_1_0_0_1_wf
def scatter_S512_S100000x1_S100000_n_0_0_1 : ScatterDims S512 S100000x1 S100000 where
  updateWindowDims := []
  insertedWindowDims := [0]
  scatterDimsToOperandDims := [0]
  indexVectorDim := 1
  wf := scatter_S512_S100000x1_S100000_n_0_0_1_wf
def dot_S512x128_S128x16_S512x16_1_0_0_1_n_n : DotDims S512x128 S128x16 S512x16 where
  lhsContracting := [1]
  rhsContracting := [0]
  lhsNonContracting := [0]
  rhsNonContracting := [1]
  lhsBatch := []
  rhsBatch := []
  wf := dot_S512x128_S128x16_S512x16_1_0_0_1_n_n_wf

abbrev win0_0 : Pipeline.Window sig grid0 :=
  Pipeline.Window.ofSpec (Memref.whole main_v24) S5000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S5000x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S64x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v25) S1x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg5) S64x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v26) S5000x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v38) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v26) S5000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg6) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v39) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg8) S128x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v40) S5000x128.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v52) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v40) S5000x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_arg9) S128x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v53) S1x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_arg11) S128x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v54) S5000x128.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

abbrev win3_0 : Pipeline.Window sig grid3 :=
  Pipeline.Window.ofSpec (Memref.whole main_v66) S512x128.size cc3_transform_0 reads3_0 false true 1 stage3_0 sem3_0
    hrank3 hreads3_0 hinb3_0 nbuf3_0 (Memref.isWhole_whole _) hwx3_0 hstage3_0

abbrev win3_1 : Pipeline.Window sig grid3 :=
  Pipeline.Window.ofSpec (Memref.whole main_arg12) S128x16.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v67) S1x16.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v68) S512x16.size cc3_transform_3 reads3_3 true true 1 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

class Facts : Prop extends Facts₀ where

variable [Facts]
-- ==== ReferenceIdeal.lean ====
abbrev S100000x64 : Shape := ⟨2, ![100000, 64]⟩
abbrev S2x1600000 : Shape := ⟨2, ![2, 1600000]⟩
abbrev S100000 : Shape := ⟨1, ![100000]⟩
abbrev S64x128 : Shape := ⟨2, ![64, 128]⟩
abbrev S128 : Shape := ⟨1, ![128]⟩
abbrev S128x128 : Shape := ⟨2, ![128, 128]⟩
abbrev S128x16 : Shape := ⟨2, ![128, 16]⟩
abbrev S16 : Shape := ⟨1, ![16]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x64 : Shape := ⟨2, ![1600000, 64]⟩
abbrev S100000x1 : Shape := ⟨2, ![100000, 1]⟩
abbrev S100000x128 : Shape := ⟨2, ![100000, 128]⟩
abbrev S1x128 : Shape := ⟨2, ![1, 128]⟩
abbrev S1600000x128 : Shape := ⟨2, ![1600000, 128]⟩
abbrev S512x128 : Shape := ⟨2, ![512, 128]⟩
abbrev S512 : Shape := ⟨1, ![512]⟩
abbrev S512x1 : Shape := ⟨2, ![512, 1]⟩
abbrev S512x16 : Shape := ⟨2, ![512, 16]⟩
abbrev S1x16 : Shape := ⟨2, ![1, 16]⟩

abbrev nBuf : Space → Nat
  | .hbm => 137
  | .vmem => 0
  | .smem => 0
  | _ => 0

abbrev hbmTy0_0 (i : Nat) : BufTy := match i % 128 with
  | 0 => ⟨S100000x64, .f32⟩
  | 1 => ⟨S2x1600000, .i32⟩
  | 2 => ⟨S100000, .i32⟩
  | 3 => ⟨S64x128, .f32⟩
  | 4 => ⟨S128, .f32⟩
  | 5 => ⟨S64x128, .f32⟩
  | 6 => ⟨S128x128, .f32⟩
  | 7 => ⟨S128, .f32⟩
  | 8 => ⟨S128x128, .f32⟩
  | 9 => ⟨S128x128, .f32⟩
  | 10 => ⟨S128, .f32⟩
  | 11 => ⟨S128x128, .f32⟩
  | 12 => ⟨S128x16, .f32⟩
  | 13 => ⟨S16, .f32⟩
  | 14 => ⟨S1x1600000, .i32⟩
  | 15 => ⟨S1600000, .i32⟩
  | 16 => ⟨S1x1600000, .i32⟩
  | 17 => ⟨S1600000, .i32⟩
  | 18 => ⟨S_, .i32⟩
  | 19 => ⟨S1600000, .i32⟩
  | 20 => ⟨S1600000, .i1⟩
  | 21 => ⟨S_, .i32⟩
  | 22 => ⟨S1600000, .i32⟩
  | 23 => ⟨S1600000, .i32⟩
  | 24 => ⟨S1600000, .i32⟩
  | 25 => ⟨S1600000x1, .i32⟩
  | 26 => ⟨S1600000x64, .f32⟩
  | 27 => ⟨S_, .f32⟩
  | 28 => ⟨S100000x64, .f32⟩
  | 29 => ⟨S1600000x1, .i32⟩
  | 30 => ⟨S100000x64, .f32⟩
  | 31 => ⟨S_, .f32⟩
  | 32 => ⟨S1600000, .f32⟩
  | 33 => ⟨S_, .f32⟩
  | 34 => ⟨S100000, .f32⟩
  | 35 => ⟨S1600000x1, .i32⟩
  | 36 => ⟨S100000, .f32⟩
  | 37 => ⟨S_, .f32⟩
  | 38 => ⟨S100000, .f32⟩
  | 39 => ⟨S100000, .f32⟩
  | 40 => ⟨S100000x1, .f32⟩
  | 41 => ⟨S100000x64, .f32⟩
  | 42 => ⟨S100000x64, .f32⟩
  | 43 => ⟨S100000x128, .f32⟩
  | 44 => ⟨S1x128, .f32⟩
  | 45 => ⟨S100000x128, .f32⟩
  | 46 => ⟨S100000x128, .f32⟩
  | 47 => ⟨S100000x128, .f32⟩
  | 48 => ⟨S100000x128, .f32⟩
  | 49 => ⟨S_, .f32⟩
  | 50 => ⟨S100000x128, .f32⟩
  | 51 => ⟨S100000x128, .f32⟩
  | 52 => ⟨S_, .i32⟩
  | 53 => ⟨S1600000, .i32⟩
  | 54 => ⟨S1600000, .i1⟩
  | 55 => ⟨S_, .i32⟩
  | 56 => ⟨S1600000, .i32⟩
  | 57 => ⟨S1600000, .i32⟩
  | 58 => ⟨S1600000, .i32⟩
  | 59 => ⟨S1600000x1, .i32⟩
  | 60 => ⟨S1600000x128, .f32⟩
  | 61 => ⟨S_, .f32⟩
  | 62 => ⟨S100000x128, .f32⟩
  | 63 => ⟨S1600000x1, .i32⟩
  | 64 => ⟨S100000x128, .f32⟩
  | 65 => ⟨S_, .f32⟩
  | 66 => ⟨S1600000, .f32⟩
  | 67 => ⟨S_, .f32⟩
  | 68 => ⟨S100000, .f32⟩
  | 69 => ⟨S1600000x1, .i32⟩
  | 70 => ⟨S100000, .f32⟩
  | 71 => ⟨S_, .f32⟩
  | 72 => ⟨S100000, .f32⟩
  | 73 => ⟨S100000, .f32⟩
  | 74 => ⟨S100000x1, .f32⟩
  | 75 => ⟨S100000x128, .f32⟩
  | 76 => ⟨S100000x128, .f32⟩
  | 77 => ⟨S100000x128, .f32⟩
  | 78 => ⟨S1x128, .f32⟩
  | 79 => ⟨S100000x128, .f32⟩
  | 80 => ⟨S100000x128, .f32⟩
  | 81 => ⟨S100000x128, .f32⟩
  | 82 => ⟨S100000x128, .f32⟩
  | 83 => ⟨S_, .f32⟩
  | 84 => ⟨S100000x128, .f32⟩
  | 85 => ⟨S100000x128, .f32⟩
  | 86 => ⟨S_, .i32⟩
  | 87 => ⟨S1600000, .i32⟩
  | 88 => ⟨S1600000, .i1⟩
  | 89 => ⟨S_, .i32⟩
  | 90 => ⟨S1600000, .i32⟩
  | 91 => ⟨S1600000, .i32⟩
  | 92 => ⟨S1600000, .i32⟩
  | 93 => ⟨S1600000x1, .i32⟩
  | 94 => ⟨S1600000x128, .f32⟩
  | 95 => ⟨S_, .f32⟩
  | 96 => ⟨S100000x128, .f32⟩
  | 97 => ⟨S1600000x1, .i32⟩
  | 98 => ⟨S100000x128, .f32⟩
  | 99 => ⟨S_, .f32⟩
  | 100 => ⟨S1600000, .f32⟩
  | 101 => ⟨S_, .f32⟩
  | 102 => ⟨S100000, .f32⟩
  | 103 => ⟨S1600000x1, .i32⟩
  | 104 => ⟨S100000, .f32⟩
  | 105 => ⟨S_, .f32⟩
  | 106 => ⟨S100000, .f32⟩
  | 107 => ⟨S100000, .f32⟩
  | 108 => ⟨S100000x1, .f32⟩
  | 109 => ⟨S100000x128, .f32⟩
  | 110 => ⟨S100000x128, .f32⟩
  | 111 => ⟨S100000x128, .f32⟩
  | 112 => ⟨S1x128, .f32⟩
  | 113 => ⟨S100000x128, .f32⟩
  | 114 => ⟨S100000x128, .f32⟩
  | 115 => ⟨S100000x128, .f32⟩
  | 116 => ⟨S100000x128, .f32⟩
  | 117 => ⟨S_, .f32⟩
  | 118 => ⟨S512x128, .f32⟩
  | 119 => ⟨S100000x1, .i32⟩
  | 120 => ⟨S512x128, .f32⟩
  | 121 => ⟨S_, .f32⟩
  | 122 => ⟨S100000, .f32⟩
  | 123 => ⟨S_, .f32⟩
  | 124 => ⟨S512, .f32⟩
  | 125 => ⟨S100000x1, .i32⟩
  | 126 => ⟨S512, .f32⟩
  | 127 => ⟨S_, .f32⟩
  | _ => ⟨S100000x64, .f32⟩

abbrev hbmTy0_1 (i : Nat) : BufTy := match i % 128 with
  | 0 => ⟨S512, .f32⟩
  | 1 => ⟨S512, .f32⟩
  | 2 => ⟨S512x1, .f32⟩
  | 3 => ⟨S512x128, .f32⟩
  | 4 => ⟨S512x128, .f32⟩
  | 5 => ⟨S512x16, .f32⟩
  | 6 => ⟨S1x16, .f32⟩
  | 7 => ⟨S512x16, .f32⟩
  | 8 => ⟨S512x16, .f32⟩
  | _ => ⟨S100000x64, .f32⟩

abbrev hbmTy (i : Nat) : BufTy := match i / 128 with
  | 0 => hbmTy0_0 i
  | 1 => hbmTy0_1 i
  | _ => ⟨S100000x64, .f32⟩

abbrev bufTy : (tb : Table) → Fin (tcTables nBuf tb) → BufTy
  | .hbm, ⟨i, _⟩ => hbmTy i
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_c : Ref sig .tc := ⟨.hbm, 18, rfl⟩
abbrev main_v4 : Ref sig .tc := ⟨.hbm, 19, rfl⟩
abbrev main_v5 : Ref sig .tc := ⟨.hbm, 20, rfl⟩
abbrev main_c_0 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_cst : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_cst_1 : Ref sig .tc := ⟨.hbm, 31, rfl⟩
abbrev main_v14 : Ref sig .tc := ⟨.hbm, 32, rfl⟩
abbrev main_cst_2 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_cst_3 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_call0_cst : Ref sig .tc := ⟨.hbm, 49, rfl⟩
abbrev main_call0_v0 : Ref sig .tc := ⟨.hbm, 50, rfl⟩
abbrev main_v29 : Ref sig .tc := ⟨.hbm, 51, rfl⟩
abbrev main_c_4 : Ref sig .tc := ⟨.hbm, 52, rfl⟩
abbrev main_v30 : Ref sig .tc := ⟨.hbm, 53, rfl⟩
abbrev main_v31 : Ref sig .tc := ⟨.hbm, 54, rfl⟩
abbrev main_c_5 : Ref sig .tc := ⟨.hbm, 55, rfl⟩
abbrev main_v32 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_cst_6 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_cst_7 : Ref sig .tc := ⟨.hbm, 65, rfl⟩
abbrev main_v40 : Ref sig .tc := ⟨.hbm, 66, rfl⟩
abbrev main_cst_8 : Ref sig .tc := ⟨.hbm, 67, rfl⟩
abbrev main_v41 : Ref sig .tc := ⟨.hbm, 68, rfl⟩
abbrev main_v42 : Ref sig .tc := ⟨.hbm, 69, rfl⟩
abbrev main_v43 : Ref sig .tc := ⟨.hbm, 70, rfl⟩
abbrev main_cst_9 : Ref sig .tc := ⟨.hbm, 71, rfl⟩
abbrev main_v44 : Ref sig .tc := ⟨.hbm, 72, rfl⟩
abbrev main_v45 : Ref sig .tc := ⟨.hbm, 73, rfl⟩
abbrev main_v46 : Ref sig .tc := ⟨.hbm, 74, rfl⟩
abbrev main_v47 : Ref sig .tc := ⟨.hbm, 75, rfl⟩
abbrev main_v48 : Ref sig .tc := ⟨.hbm, 76, rfl⟩
abbrev main_v49 : Ref sig .tc := ⟨.hbm, 77, rfl⟩
abbrev main_v50 : Ref sig .tc := ⟨.hbm, 78, rfl⟩
abbrev main_v51 : Ref sig .tc := ⟨.hbm, 79, rfl⟩
abbrev main_v52 : Ref sig .tc := ⟨.hbm, 80, rfl⟩
abbrev main_v53 : Ref sig .tc := ⟨.hbm, 81, rfl⟩
abbrev main_v54 : Ref sig .tc := ⟨.hbm, 82, rfl⟩
abbrev main_call1_cst : Ref sig .tc := ⟨.hbm, 83, rfl⟩
abbrev main_call1_v0 : Ref sig .tc := ⟨.hbm, 84, rfl⟩
abbrev main_v55 : Ref sig .tc := ⟨.hbm, 85, rfl⟩
abbrev main_c_10 : Ref sig .tc := ⟨.hbm, 86, rfl⟩
abbrev main_v56 : Ref sig .tc := ⟨.hbm, 87, rfl⟩
abbrev main_v57 : Ref sig .tc := ⟨.hbm, 88, rfl⟩
abbrev main_c_11 : Ref sig .tc := ⟨.hbm, 89, rfl⟩
abbrev main_v58 : Ref sig .tc := ⟨.hbm, 90, rfl⟩
abbrev main_v59 : Ref sig .tc := ⟨.hbm, 91, rfl⟩
abbrev main_v60 : Ref sig .tc := ⟨.hbm, 92, rfl⟩
abbrev main_v61 : Ref sig .tc := ⟨.hbm, 93, rfl⟩
abbrev main_v62 : Ref sig .tc := ⟨.hbm, 94, rfl⟩
abbrev main_cst_12 : Ref sig .tc := ⟨.hbm, 95, rfl⟩
abbrev main_v63 : Ref sig .tc := ⟨.hbm, 96, rfl⟩
abbrev main_v64 : Ref sig .tc := ⟨.hbm, 97, rfl⟩
abbrev main_v65 : Ref sig .tc := ⟨.hbm, 98, rfl⟩
abbrev main_cst_13 : Ref sig .tc := ⟨.hbm, 99, rfl⟩
abbrev main_v66 : Ref sig .tc := ⟨.hbm, 100, rfl⟩
abbrev main_cst_14 : Ref sig .tc := ⟨.hbm, 101, rfl⟩
abbrev main_v67 : Ref sig .tc := ⟨.hbm, 102, rfl⟩
abbrev main_v68 : Ref sig .tc := ⟨.hbm, 103, rfl⟩
abbrev main_v69 : Ref sig .tc := ⟨.hbm, 104, rfl⟩
abbrev main_cst_15 : Ref sig .tc := ⟨.hbm, 105, rfl⟩
abbrev main_v70 : Ref sig .tc := ⟨.hbm, 106, rfl⟩
abbrev main_v71 : Ref sig .tc := ⟨.hbm, 107, rfl⟩
abbrev main_v72 : Ref sig .tc := ⟨.hbm, 108, rfl⟩
abbrev main_v73 : Ref sig .tc := ⟨.hbm, 109, rfl⟩
abbrev main_v74 : Ref sig .tc := ⟨.hbm, 110, rfl⟩
abbrev main_v75 : Ref sig .tc := ⟨.hbm, 111, rfl⟩
abbrev main_v76 : Ref sig .tc := ⟨.hbm, 112, rfl⟩
abbrev main_v77 : Ref sig .tc := ⟨.hbm, 113, rfl⟩
abbrev main_v78 : Ref sig .tc := ⟨.hbm, 114, rfl⟩
abbrev main_v79 : Ref sig .tc := ⟨.hbm, 115, rfl⟩
abbrev main_v80 : Ref sig .tc := ⟨.hbm, 116, rfl⟩
abbrev main_cst_16 : Ref sig .tc := ⟨.hbm, 117, rfl⟩
abbrev main_v81 : Ref sig .tc := ⟨.hbm, 118, rfl⟩
abbrev main_v82 : Ref sig .tc := ⟨.hbm, 119, rfl⟩
abbrev main_v83 : Ref sig .tc := ⟨.hbm, 120, rfl⟩
abbrev main_cst_17 : Ref sig .tc := ⟨.hbm, 121, rfl⟩
abbrev main_v84 : Ref sig .tc := ⟨.hbm, 122, rfl⟩
abbrev main_cst_18 : Ref sig .tc := ⟨.hbm, 123, rfl⟩
abbrev main_v85 : Ref sig .tc := ⟨.hbm, 124, rfl⟩
abbrev main_v86 : Ref sig .tc := ⟨.hbm, 125, rfl⟩
abbrev main_v87 : Ref sig .tc := ⟨.hbm, 126, rfl⟩
abbrev main_cst_19 : Ref sig .tc := ⟨.hbm, 127, rfl⟩
abbrev main_v88 : Ref sig .tc := ⟨.hbm, 128, rfl⟩
abbrev main_v89 : Ref sig .tc := ⟨.hbm, 129, rfl⟩
abbrev main_v90 : Ref sig .tc := ⟨.hbm, 130, rfl⟩
abbrev main_v91 : Ref sig .tc := ⟨.hbm, 131, rfl⟩
abbrev main_v92 : Ref sig .tc := ⟨.hbm, 132, rfl⟩
abbrev main_v93 : Ref sig .tc := ⟨.hbm, 133, rfl⟩
abbrev main_v94 : Ref sig .tc := ⟨.hbm, 134, rfl⟩
abbrev main_v95 : Ref sig .tc := ⟨.hbm, 135, rfl⟩
abbrev main_v96 : Ref sig .tc := ⟨.hbm, 136, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x64 : S_.BroadcastsInDim S100000x64 (![] : Fin 0 → Fin S100000x64.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x64_0_1 : S100000x1.BroadcastsInDim S100000x64 (![0, 1] : Fin 2 → Fin S100000x64.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S_S100000x128 : S_.BroadcastsInDim S100000x128 (![] : Fin 0 → Fin S100000x128.rank)
  bcast_S100000x1_S100000x128_0_1 : S100000x1.BroadcastsInDim S100000x128 (![0, 1] : Fin 2 → Fin S100000x128.rank)
  bcast_S_S512x128 : S_.BroadcastsInDim S512x128 (![] : Fin 0 → Fin S512x128.rank)
  bcast_S_S512 : S_.BroadcastsInDim S512 (![] : Fin 0 → Fin S512.rank)
  bcast_S512_S512x1_0 : S512.BroadcastsInDim S512x1 (![0] : Fin 1 → Fin S512x1.rank)
  bcast_S512x1_S512x128_0_1 : S512x1.BroadcastsInDim S512x128 (![0, 1] : Fin 2 → Fin S512x128.rank)
  bcast_S16_S1x16_1 : S16.BroadcastsInDim S1x16 (![1] : Fin 1 → Fin S1x16.rank)
  bcast_S1x16_S512x16_0_1 : S1x16.BroadcastsInDim S512x16 (![0, 1] : Fin 2 → Fin S512x16.rank)
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  scatter_S100000_S1600000x1_S1600000_n_0_0_1_wf : ScatterDims.WF S100000 S1600000x1 S1600000 [] [0] [0] 1
  dot_S100000x64_S64x128_S100000x128_1_0_0_1_n_n_wf : DotDims.WF S100000x64 S64x128 S100000x128 [1] [0] [0] [1] [] []
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S100000x128_S128x128_S100000x128_1_0_0_1_n_n_wf : DotDims.WF S100000x128 S128x128 S100000x128 [1] [0] [0] [1] [] []
  scatter_S512x128_S100000x1_S100000x128_1_0_0_1_wf : ScatterDims.WF S512x128 S100000x1 S100000x128 [1] [0] [0] 1
  scatter_S512_S100000x1_S100000_n_0_0_1_wf : ScatterDims.WF S512 S100000x1 S100000 [] [0] [0] 1
  dot_S512x128_S128x16_S512x16_1_0_0_1_n_n_wf : DotDims.WF S512x128 S128x16 S512x16 [1] [0] [0] [1] [] []

variable [Facts₀]

def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S100000x64_S64x128_S100000x128_1_0_0_1_n_n : DotDims S100000x64 S64x128 S100000x128 where
  lhsContracting := [1]
  rhsContracting := [0]
  lhsNonContracting := [0]
  rhsNonContracting := [1]
  lhsBatch := []
  rhsBatch := []
  wf := dot_S100000x64_S64x128_S100000x128_1_0_0_1_n_n_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def scatter_S512x128_S100000x1_S100000x128_1_0_0_1 : ScatterDims S512x128 S100000x1 S100000x128 where
  updateWindowDims := [1]
  insertedWindowDims := [0]
  scatterDimsToOperandDims := [0]
  indexVectorDim := 1
  wf := scatter_S512x128_S100000x1_S100000x128_1_0_0_1_wf
def scatter_S512_S100000x1_S100000_n_0_0_1 : ScatterDims S512 S100000x1 S100000 where
  updateWindowDims := []
  insertedWindowDims := [0]
  scatterDimsToOperandDims := [0]
  indexVectorDim := 1
  wf := scatter_S512_S100000x1_S100000_n_0_0_1_wf
def dot_S512x128_S128x16_S512x16_1_0_0_1_n_n : DotDims S512x128 S128x16 S512x16 where
  lhsContracting := [1]
  rhsContracting := [0]
  lhsNonContracting := [0]
  rhsNonContracting := [1]
  lhsBatch := []
  rhsBatch := []
  wf := dot_S512x128_S128x16_S512x16_1_0_0_1_n_n_wf

class Facts : Prop extends Facts₀ where

variable [Facts]
-- ==== Proof.KernelRun.lean ====
/-
  The kernel program's run with its result named. The program is four kernel launches among stretches of host
  operations; every weakly fair execution terminates without a fault, and at the end every buffer that outlives a
  launch holds the contents the program's segments leave in it, folded from the launch memory. Read at the result
  buffer this names the result; read at the argument buffers it says they are unchanged.
-/
import proofs.«175460_j79869211836878_1_alg».proof.Proof.Gen.KernelIdeal.Frame

set_option maxRecDepth 16384

noncomputable section

namespace Cert.KernelIdeal.Result

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates, the result buffer holding what the last launch's
    write-backs leave in it and every argument as launched. -/
theorem run_result : θ_run defs (onTc (τ := τ) (main (F := F))) ⟨m, fun _ => 0, ρ⟩ (fun r => ∀ c : Dev nD,
      r.2.mem ((c.tc : Thread nD τ).loc main_v68) = W8 m ρ c (Proc.devRef .tc main_v68)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun s h c =>
      ⟨h c _ (mem_uc main_v68 (by decide)),
       (h c _ (mem_uc main_arg0 (by decide))).trans (W8_main_arg0 m ρ c),
       (h c _ (mem_uc main_arg1 (by decide))).trans (W8_main_arg1 m ρ c),
       (h c _ (mem_uc main_arg2 (by decide))).trans (W8_main_arg2 m ρ c),
       (h c _ (mem_uc main_arg3 (by decide))).trans (W8_main_arg3 m ρ c),
       (h c _ (mem_uc main_arg4 (by decide))).trans (W8_main_arg4 m ρ c),
       (h c _ (mem_uc main_arg5 (by decide))).trans (W8_main_arg5 m ρ c),
       (h c _ (mem_uc main_arg6 (by decide))).trans (W8_main_arg6 m ρ c),
       (h c _ (mem_uc main_arg7 (by decide))).trans (W8_main_arg7 m ρ c),
       (h c _ (mem_uc main_arg8 (by decide))).trans (W8_main_arg8 m ρ c),
       (h c _ (mem_uc main_arg9 (by decide))).trans (W8_main_arg9 m ρ c),
       (h c _ (mem_uc main_arg10 (by decide))).trans (W8_main_arg10 m ρ c),
       (h c _ (mem_uc main_arg11 (by decide))).trans (W8_main_arg11 m ρ c),
       (h c _ (mem_uc main_arg12 (by decide))).trans (W8_main_arg12 m ρ c),
       (h c _ (mem_uc main_arg13 (by decide))).trans (W8_main_arg13 m ρ c)⟩)

end Cert.KernelIdeal.Result

end
-- ==== Proof.Mean.lean ====
/-
  Mean aggregation on the extended reals. A sum of messages S is turned into a mean either by multiplying with the
  reciprocal 1 / max(cnt, 1) or by dividing by max(cnt, 1). The divisor max(cnt, 1) is at least 1, so it is never
  zero, and for a divisor c that is not zero both 1 / c and a / c are products with the inverse of c:
  a · (1 / c) = a · (1 · c⁻¹) = a · c⁻¹ = a / c. This holds at the infinities too, so no entry needs to be finite.
  Broadcasting the per-row divisor along the feature axis is a re-indexing and commutes with every pointwise step.
-/
import Idealize.ShloMosaic.PureOps.Ideal
import Idealize.ShloMosaic.PureOps.Ideal.Laws
import Idealize.ShloMosaic.Lib.IdealHost

noncomputable section

namespace Cert.Bridge.Mean

open Idealize.ShloMosaic

/-- For a divisor that is not zero, multiplying by its reciprocal is dividing by it. -/
theorem mul_one_div (a c : EReal) (hc : c ≠ 0) : a * Ideal.div 1 c = Ideal.div a c := by
  unfold Ideal.div
  rw [if_neg hc, if_neg hc, one_mul]

/-- A count clamped below by one is not zero. -/
theorem max_one_ne_zero (x : EReal) : max x 1 ≠ 0 :=
  (lt_of_lt_of_le zero_lt_one (le_max_right x 1)).ne'

/-- The sum of messages times the broadcast reciprocal of the clamped count is the sum divided by the broadcast
    clamped count, entry by entry. The two broadcasts (a row's value to a column, the column along the features)
    are arbitrary re-indexings here. -/
theorem mul_recip_eq_div {sN sN1 sND : Shape} {d1 : Fin sN.rank → Fin sN1.rank} {d2 : Fin sN1.rank → Fin sND.rank}
    (h0 : (⟨0, ![]⟩ : Shape).BroadcastsInDim sN ![]) (h1 : sN.BroadcastsInDim sN1 d1) (h2 : sN1.BroadcastsInDim sND d2)
    (S : FVec Ideal sND .f32) (cnt : FVec Ideal sN .f32) :
    mulf S (broadcastInDim sND d2 h2 (broadcastInDim sN1 d1 h1
        (Host.divf (broadcastInDim sN ![] h0 (constant (F := Ideal) ⟨0, ![]⟩ .f32 0x3F800000#32))
          (maximumf cnt (broadcastInDim sN ![] h0 (constant (F := Ideal) ⟨0, ![]⟩ .f32 0x3F800000#32))))))
      = Host.divf S (broadcastInDim sND d2 h2 (broadcastInDim sN1 d1 h1
          (maximumf cnt (broadcastInDim sN ![] h0 (constant (F := Ideal) ⟨0, ![]⟩ .f32 0x3F800000#32))))) := by
  funext j
  simp only [mulf, maximumf, broadcastInDim, constant, ValueIdx.hostDivf_apply, Ideal.mulf_def, Ideal.maximumf_def,
    Ideal.ofBits_def, Ideal.ofBits_one_f32]
  exact mul_one_div _ _ (max_one_ne_zero _)

end Cert.Bridge.Mean

end
-- ==== Proof.LibMatmul.lean ====
/-
  A plain matrix product read at an index. For the dimension numbers of an M×K by K×N product (contract the left
  operand's second axis with the right operand's first), the contraction's sum at output index (p, q), which the
  library states over the contraction shape's own index type, is the textbook sum over k : Fin K of L[p, k] · R[k, q].
-/
import Idealize.ShloMosaic.PureOps.Ideal
import Idealize.ShloMosaic.PureOps.Ideal.Laws
import Idealize.ShloMosaic.Lib.ValueIdx

noncomputable section

open scoped BigOperators

namespace Cert.Bridge.LibMatmul

open Idealize.ShloMosaic Idealize.ShloMosaic.ValueIdx

variable {M K N : Nat}

theorem plain_rank : (DotDims.plain M K N).contr.rank = 1 := rfl
theorem plain_size : (DotDims.plain M K N).contr.size ⟨0, by rw [plain_rank]; exact Nat.one_pos⟩ = K := rfl

/-- The left operand's index at output (p, q) and contraction coordinate k is (p, k). -/
theorem plain_lhsIdx (p : Fin M) (q : Fin N) (k : Fin K) :
    (DotDims.plain M K N).lhsIdx (ix2 p q) ((contrEquiv1 (DotDims.plain M K N) K plain_rank plain_size).symm k) = ix2 p k := by
  funext a
  refine Fin.ext ?_
  match a with
  | ⟨0, _⟩ => rfl
  | ⟨1, _⟩ =>
    refine ((DotDims.plain M K N).lhsIdx_val_of_single (cl := 1) rfl (ix2 p q) _).trans ?_
    exact contrEquiv1_symm_val (DotDims.plain M K N) K plain_rank plain_size k

/-- The right operand's index at output (p, q) and contraction coordinate k is (k, q). -/
theorem plain_rhsIdx (p : Fin M) (q : Fin N) (k : Fin K) :
    (DotDims.plain M K N).rhsIdx (ix2 p q) ((contrEquiv1 (DotDims.plain M K N) K plain_rank plain_size).symm k) = ix2 k q := by
  funext a
  refine Fin.ext ?_
  match a with
  | ⟨0, _⟩ =>
    refine ((DotDims.plain M K N).rhsIdx_val_of_single (cr := 0) rfl (ix2 p q) _).trans ?_
    exact contrEquiv1_symm_val (DotDims.plain M K N) K plain_rank plain_size k
  | ⟨1, _⟩ => rfl

/-- The contraction's sum, over the textbook index. -/
theorem plain_sum {α : Type} [AddCommMonoid α] [Mul α] (L : (⟨2, ![M, K]⟩ : Shape).Idx → α) (R : (⟨2, ![K, N]⟩ : Shape).Idx → α)
    (p : Fin M) (q : Fin N) :
    ∑ k : (DotDims.plain M K N).contr.Idx, L ((DotDims.plain M K N).lhsIdx (ix2 p q) k) * R ((DotDims.plain M K N).rhsIdx (ix2 p q) k)
      = ∑ k : Fin K, L (ix2 p k) * R (ix2 k q) := by
  rw [← Equiv.sum_comp (contrEquiv1 (DotDims.plain M K N) K plain_rank plain_size).symm]
  refine Finset.sum_congr rfl fun k _ => ?_
  rw [plain_lhsIdx, plain_rhsIdx]

/-- A matrix unit's product into the zero accumulator, at the extended reals, read at (p, q). -/
theorem matmul_zero_apply {φ₁ φ₂ : FTy} (prec : Option ContractPrecision)
    (L : FVec Ideal ⟨2, ![M, K]⟩ φ₁) (R : FVec Ideal ⟨2, ![K, N]⟩ φ₂) (p : Fin M) (q : Fin N) :
    FloatOps.matmul (DotDims.plain M K N) prec L R (constant ⟨2, ![M, N]⟩ .f32 0x00000000#32) (ix2 p q)
      = ∑ k : Fin K, L (ix2 p k) * R (ix2 k q) :=
  (Ideal.matmul_constant_zero_apply _ prec L R (ix2 p q)).trans (plain_sum L R p q)

/-- The host's product, at the extended reals, read at (p, q). -/
theorem dotGeneral_apply {φ₁ φ₂ : FTy} (prec : Option ContractPrecision) (sched : HostSchedule)
    (L : FVec Ideal ⟨2, ![M, K]⟩ φ₁) (R : FVec Ideal ⟨2, ![K, N]⟩ φ₂) (p : Fin M) (q : Fin N) :
    FloatOps.dotGeneral (DotDims.plain M K N) prec sched L R (ix2 p q) = ∑ k : Fin K, L (ix2 p k) * R (ix2 k q) :=
  (Ideal.dotGeneral_apply _ prec sched L R (ix2 p q)).trans (plain_sum L R p q)

end Cert.Bridge.LibMatmul

end
-- ==== Proof.Layer.lean ====
/-
  One graph-convolution layer read at an index, on the extended reals. At row r and output feature q the layer is
      (Σ_k agg[r,k] · Wl[k,q]) + (Σ_k x[r,k] · Wr[k,q]) + b[q],
  followed, in the first two layers, by the maximum with zero. The kernel's body computes it on a block of rows as two
  matrix products into zero accumulators, their sum, and the bias row (a [1, N] array) broadcast down the rows; a
  change of float format is the identity on the extended reals. The reference computes it on all rows as a product, plus
  the bias (an [N] array broadcast to [1, N] and then down the rows), plus the second product. The two differ only in
  the order of the three summands, and addition of extended reals is commutative and associative.
-/
import Idealize.ShloMosaic.PureOps.Ideal
import Idealize.ShloMosaic.PureOps.Ideal.Laws
import Idealize.ShloMosaic.Lib.ValueIdx
import Idealize.ShloMosaic.Lib.Pipeline.Value
import proofs.«175460_j79869211836878_1_alg».proof.Proof.LibMatmul

noncomputable section

open scoped BigOperators

namespace Cert.Bridge.Layer

open Idealize.ShloMosaic Idealize.ShloMosaic.ValueIdx Cert.Bridge.LibMatmul

variable {M K N : Nat}

/-- One layer before its activation, at row r and feature q: the aggregated neighbours through Wl, the node's own
    features through Wr, and the bias. -/
def affine (agg x : (⟨2, ![M, K]⟩ : Shape).Idx → EReal) (Wl Wr : (⟨2, ![K, N]⟩ : Shape).Idx → EReal) (b : Fin N → EReal)
    (r : Fin M) (q : Fin N) : EReal :=
  (∑ k : Fin K, agg (ix2 r k) * Wl (ix2 k q)) + (∑ k : Fin K, x (ix2 r k) * Wr (ix2 k q)) + b q

/-- The whole layer as an array: at index j the layer's value at row j 0 and feature j 1, through the activation. The
    bias is given as a row, a [1, N] array. -/
def layer (act : EReal → EReal) (agg x : (⟨2, ![M, K]⟩ : Shape).Idx → EReal) (Wl : (⟨2, ![K, N]⟩ : Shape).Idx → EReal)
    (b2 : (⟨2, ![1, N]⟩ : Shape).Idx → EReal) (Wr : (⟨2, ![K, N]⟩ : Shape).Idx → EReal) : (⟨2, ![M, N]⟩ : Shape).Idx → EReal :=
  fun j => act (affine agg x Wl Wr (fun q => b2 (ix2 (0 : Fin 1) q)) (j 0) (j 1))

/-- The activation of the first two layers: the maximum with zero. -/
def relu (z : EReal) : EReal := max z 0

/-- A bias row broadcast down the rows reads the row's entry of the same column. -/
theorem bias_row_apply (b2 : (⟨2, ![1, N]⟩ : Shape).Idx → EReal) (h : (⟨2, ![1, N]⟩ : Shape).Broadcasts ⟨2, ![M, N]⟩)
    (p : Fin M) (q : Fin N) : broadcastTo ⟨2, ![M, N]⟩ b2 h (ix2 p q) = b2 (ix2 (0 : Fin 1) q) := by
  refine broadcastTo_apply b2 h (ix2 p q) (ix2 (0 : Fin 1) q) fun a => ?_
  match a with
  | ⟨0, _⟩ => exact (if_pos rfl).symm
  | ⟨1, _⟩ =>
    show q.val = if N = 1 then 0 else q.val
    split
    · have := q.isLt; omega
    · rfl

/-- The kernel body's expression at (p, q): both products into zero accumulators, summed, plus the bias row. -/
theorem body_apply {φ₁ φ₂ : FTy} (L1 L2 : FVec Ideal ⟨2, ![M, K]⟩ φ₁) (R1 R2 : FVec Ideal ⟨2, ![K, N]⟩ φ₂)
    (b2 : FVec Ideal ⟨2, ![1, N]⟩ .f32) (h : (⟨2, ![1, N]⟩ : Shape).Broadcasts ⟨2, ![M, N]⟩) (p : Fin M) (q : Fin N) :
    addf (addf (matmul (DotDims.plain M K N) none L1 R1 (constant ⟨2, ![M, N]⟩ .f32 0x00000000#32))
        (matmul (DotDims.plain M K N) none L2 R2 (constant ⟨2, ![M, N]⟩ .f32 0x00000000#32)))
      (broadcastTo ⟨2, ![M, N]⟩ b2 h) (ix2 p q)
      = affine L1 L2 R1 R2 (fun q => b2 (ix2 (0 : Fin 1) q)) p q := by
  show FloatOps.addf (FloatOps.addf (FloatOps.matmul (DotDims.plain M K N) none L1 R1 _ (ix2 p q))
      (FloatOps.matmul (DotDims.plain M K N) none L2 R2 _ (ix2 p q))) (broadcastTo ⟨2, ![M, N]⟩ b2 h (ix2 p q)) = _
  rw [matmul_zero_apply, matmul_zero_apply, bias_row_apply]
  rfl

/-- A bias broadcast to a row and then down the rows reads the bias at the column. -/
theorem bias_apply {d1 : Fin 1 → Fin 2} {d2 : Fin 2 → Fin 2} (hd1 : d1 0 = 1) (hd2 : d2 1 = 1)
    (b : (⟨1, ![N]⟩ : Shape).Idx → EReal)
    (h1 : (⟨1, ![N]⟩ : Shape).BroadcastsInDim ⟨2, ![1, N]⟩ d1) (h2 : (⟨2, ![1, N]⟩ : Shape).BroadcastsInDim ⟨2, ![M, N]⟩ d2)
    (r : Fin M) (q : Fin N) :
    broadcastInDim ⟨2, ![M, N]⟩ d2 h2 (broadcastInDim ⟨2, ![1, N]⟩ d1 h1 b) (ix2 r q) = b (ix1 q) := by
  rw [broadcastInDim_apply d2 h2 _ (ix2 r q) (ix2 (0 : Fin 1) q) (fun a => by
    match a with
    | ⟨0, _⟩ => exact (if_pos rfl).symm
    | ⟨1, _⟩ =>
      show q.val = if N = 1 then 0 else ((ix2 r q) (d2 1)).val
      rw [hd2]
      split
      · have := q.isLt; omega
      · rfl)]
  exact broadcastInDim_apply d1 h1 b (ix2 (0 : Fin 1) q) (ix1 q) (fun a => by
    match a with
    | ⟨0, _⟩ =>
      show q.val = if N = 1 then 0 else ((ix2 (0 : Fin 1) q) (d1 0)).val
      rw [hd1]
      split
      · have := q.isLt; omega
      · rfl)

/-- The reference's expression at (r, q): a product, plus the bias, plus the second product. -/
theorem host_apply {d1 : Fin 1 → Fin 2} {d2 : Fin 2 → Fin 2} (hd1 : d1 0 = 1) (hd2 : d2 1 = 1)
    (agg x : FVec Ideal ⟨2, ![M, K]⟩ .f32) (Wl Wr : FVec Ideal ⟨2, ![K, N]⟩ .f32) (b : FVec Ideal ⟨1, ![N]⟩ .f32)
    (h1 : (⟨1, ![N]⟩ : Shape).BroadcastsInDim ⟨2, ![1, N]⟩ d1) (h2 : (⟨2, ![1, N]⟩ : Shape).BroadcastsInDim ⟨2, ![M, N]⟩ d2)
    (r : Fin M) (q : Fin N) :
    addf (addf (Host.dotGeneral (DotDims.plain M K N) none agg Wl)
        (broadcastInDim ⟨2, ![M, N]⟩ d2 h2 (broadcastInDim ⟨2, ![1, N]⟩ d1 h1 b)))
      (Host.dotGeneral (DotDims.plain M K N) none x Wr) (ix2 r q)
      = affine agg x Wl Wr (fun q => b (ix1 q)) r q := by
  show FloatOps.addf (FloatOps.addf (Host.dotGeneral (DotDims.plain M K N) none agg Wl (ix2 r q))
      (broadcastInDim ⟨2, ![M, N]⟩ d2 h2 (broadcastInDim ⟨2, ![1, N]⟩ d1 h1 b) (ix2 r q)))
      (Host.dotGeneral (DotDims.plain M K N) none x Wr (ix2 r q)) = _
  rw [bias_apply hd1 hd2]
  simp only [Host.dotGeneral]
  rw [dotGeneral_apply, dotGeneral_apply]
  exact add_right_comm _ _ _

/-- The final linear map at row r and class q: the pooled features through W, plus the bias. -/
def linear (g : (⟨2, ![M, K]⟩ : Shape).Idx → EReal) (W : (⟨2, ![K, N]⟩ : Shape).Idx → EReal) (b : Fin N → EReal)
    (r : Fin M) (q : Fin N) : EReal :=
  (∑ k : Fin K, g (ix2 r k) * W (ix2 k q)) + b q

/-- The final linear map as an array, the bias given as a row. -/
def linearArr (g : (⟨2, ![M, K]⟩ : Shape).Idx → EReal) (W : (⟨2, ![K, N]⟩ : Shape).Idx → EReal)
    (b2 : (⟨2, ![1, N]⟩ : Shape).Idx → EReal) : (⟨2, ![M, N]⟩ : Shape).Idx → EReal :=
  fun j => linear g W (fun q => b2 (ix2 (0 : Fin 1) q)) (j 0) (j 1)

/-- The final kernel body's expression at (p, q): the product into a zero accumulator plus the bias row. -/
theorem body1_apply {φ₁ φ₂ : FTy} (L : FVec Ideal ⟨2, ![M, K]⟩ φ₁) (R : FVec Ideal ⟨2, ![K, N]⟩ φ₂)
    (b2 : FVec Ideal ⟨2, ![1, N]⟩ .f32) (h : (⟨2, ![1, N]⟩ : Shape).Broadcasts ⟨2, ![M, N]⟩) (p : Fin M) (q : Fin N) :
    addf (matmul (DotDims.plain M K N) none L R (constant ⟨2, ![M, N]⟩ .f32 0x00000000#32))
      (broadcastTo ⟨2, ![M, N]⟩ b2 h) (ix2 p q)
      = linear L R (fun q => b2 (ix2 (0 : Fin 1) q)) p q := by
  show FloatOps.addf (FloatOps.matmul (DotDims.plain M K N) none L R _ (ix2 p q)) (broadcastTo ⟨2, ![M, N]⟩ b2 h (ix2 p q)) = _
  rw [matmul_zero_apply, bias_row_apply]
  rfl

/-- The reference's final expression at (r, q): the product plus the bias. -/
theorem host1_apply {d1 : Fin 1 → Fin 2} {d2 : Fin 2 → Fin 2} (hd1 : d1 0 = 1) (hd2 : d2 1 = 1)
    (g : FVec Ideal ⟨2, ![M, K]⟩ .f32) (W : FVec Ideal ⟨2, ![K, N]⟩ .f32) (b : FVec Ideal ⟨1, ![N]⟩ .f32)
    (h1 : (⟨1, ![N]⟩ : Shape).BroadcastsInDim ⟨2, ![1, N]⟩ d1) (h2 : (⟨2, ![1, N]⟩ : Shape).BroadcastsInDim ⟨2, ![M, N]⟩ d2)
    (r : Fin M) (q : Fin N) :
    addf (Host.dotGeneral (DotDims.plain M K N) none g W)
        (broadcastInDim ⟨2, ![M, N]⟩ d2 h2 (broadcastInDim ⟨2, ![1, N]⟩ d1 h1 b)) (ix2 r q)
      = linear g W (fun q => b (ix1 q)) r q := by
  show FloatOps.addf (Host.dotGeneral (DotDims.plain M K N) none g W (ix2 r q))
      (broadcastInDim ⟨2, ![M, N]⟩ d2 h2 (broadcastInDim ⟨2, ![1, N]⟩ d1 h1 b) (ix2 r q)) = _
  rw [bias_apply hd1 hd2]
  simp only [Host.dotGeneral]
  rw [dotGeneral_apply]
  rfl

/-- A bias reshaped to a row reads the bias at the column. -/
theorem bias_reshape_apply (b : (⟨1, ![N]⟩ : Shape).Idx → EReal) (h : (⟨1, ![N]⟩ : Shape).ShapeCasts ⟨2, ![1, N]⟩) (q : Fin N) :
    shapeCast ⟨2, ![1, N]⟩ b h (ix2 (0 : Fin 1) q) = b (ix1 q) :=
  (shapeCast_addUnit_apply ![N] b h (ix2 (0 : Fin 1) q)).trans
    (congrArg b (funext fun a => by match a with | ⟨0, _⟩ => rfl))

section Arrays

variable {d1 : Fin 1 → Fin 2} {d2 : Fin 2 → Fin 2} (hd1 : d1 0 = 1) (hd2 : d2 1 = 1)
  (agg x : FVec Ideal ⟨2, ![M, K]⟩ .f32) (Wl Wr : FVec Ideal ⟨2, ![K, N]⟩ .f32) (b : FVec Ideal ⟨1, ![N]⟩ .f32)
  (hs : (⟨1, ![N]⟩ : Shape).ShapeCasts ⟨2, ![1, N]⟩)
  (h0 : (⟨0, ![]⟩ : Shape).BroadcastsInDim ⟨2, ![M, N]⟩ ![])
  (h1 : (⟨1, ![N]⟩ : Shape).BroadcastsInDim ⟨2, ![1, N]⟩ d1) (h2 : (⟨2, ![1, N]⟩ : Shape).BroadcastsInDim ⟨2, ![M, N]⟩ d2)

include hd1 hd2

/-- The whole layer without activation, the bias reshaped to a row, is the reference's expression. -/
theorem layer_id_eq_host :
    layer (fun z => z) agg x Wl (shapeCast ⟨2, ![1, N]⟩ b hs) Wr
      = addf (addf (Host.dotGeneral (DotDims.plain M K N) none agg Wl)
          (broadcastInDim ⟨2, ![M, N]⟩ d2 h2 (broadcastInDim ⟨2, ![1, N]⟩ d1 h1 b)))
        (Host.dotGeneral (DotDims.plain M K N) none x Wr) := by
  funext j
  obtain ⟨r, q, rfl⟩ : ∃ (r : Fin M) (q : Fin N), j = ix2 r q := ⟨j 0, j 1, eq_ix2 j⟩
  rw [host_apply hd1 hd2]
  show affine agg x Wl Wr (fun q => shapeCast ⟨2, ![1, N]⟩ b hs (ix2 (0 : Fin 1) q)) r q = _
  simp only [bias_reshape_apply]

/-- The whole layer with the maximum with zero, the bias reshaped to a row, is the reference's expression. -/
theorem layer_relu_eq_host :
    layer relu agg x Wl (shapeCast ⟨2, ![1, N]⟩ b hs) Wr
      = maximumf (addf (addf (Host.dotGeneral (DotDims.plain M K N) none agg Wl)
            (broadcastInDim ⟨2, ![M, N]⟩ d2 h2 (broadcastInDim ⟨2, ![1, N]⟩ d1 h1 b)))
          (Host.dotGeneral (DotDims.plain M K N) none x Wr))
        (broadcastInDim ⟨2, ![M, N]⟩ ![] h0 (constant (F := Ideal) ⟨0, ![]⟩ .f32 0x00000000#32)) := by
  funext j
  obtain ⟨r, q, rfl⟩ : ∃ (r : Fin M) (q : Fin N), j = ix2 r q := ⟨j 0, j 1, eq_ix2 j⟩
  show relu (affine agg x Wl Wr (fun q => shapeCast ⟨2, ![1, N]⟩ b hs (ix2 (0 : Fin 1) q)) r q)
    = max (addf (addf (Host.dotGeneral (DotDims.plain M K N) none agg Wl)
        (broadcastInDim ⟨2, ![M, N]⟩ d2 h2 (broadcastInDim ⟨2, ![1, N]⟩ d1 h1 b)))
      (Host.dotGeneral (DotDims.plain M K N) none x Wr) (ix2 r q)) (Ideal.ofBits .f32 0x00000000#32)
  rw [host_apply hd1 hd2, Ideal.ofBits_zero_f32]
  simp only [bias_reshape_apply]
  rfl

/-- The final linear map, the bias reshaped to a row, is the reference's expression. -/
theorem linear_eq_host (g : FVec Ideal ⟨2, ![M, K]⟩ .f32) (W : FVec Ideal ⟨2, ![K, N]⟩ .f32) :
    linearArr g W (shapeCast ⟨2, ![1, N]⟩ b hs)
      = addf (Host.dotGeneral (DotDims.plain M K N) none g W)
          (broadcastInDim ⟨2, ![M, N]⟩ d2 h2 (broadcastInDim ⟨2, ![1, N]⟩ d1 h1 b)) := by
  funext j
  obtain ⟨r, q, rfl⟩ : ∃ (r : Fin M) (q : Fin N), j = ix2 r q := ⟨j 0, j 1, eq_ix2 j⟩
  rw [host1_apply hd1 hd2]
  show linear g W (fun q => shapeCast ⟨2, ![1, N]⟩ b hs (ix2 (0 : Fin 1) q)) r q = _
  simp only [bias_reshape_apply]

end Arrays

end Cert.Bridge.Layer

end
-- ==== Proof.Region0.lean ====
/-
  The first layer's kernel, from blocks to the whole array. The kernel runs over 20 grid points; point t reads rows
  5000·t … 5000·t + 4999 of the aggregated features and of the node features, reads the two weight matrices and the
  bias row whole, and writes rows 5000·t … 5000·t + 4999 of the output. The body's value at row p and feature q of the
  block is the layer's value at row 5000·t + p and feature q of the whole arrays, so each written block is the
  restriction of one whole-array function; the 20 blocks tile the 100000 rows, so the output array ends holding that
  function everywhere.
-/
import proofs.«175460_j79869211836878_1_alg».proof.Proof.Gen.KernelIdeal.Frame
import proofs.«175460_j79869211836878_1_alg».proof.Proof.Layer
import Idealize.ShloMosaic.Lib.Pipeline.Value
import Idealize.ShloMosaic.Lib.ValueIdx

set_option maxRecDepth 16384

noncomputable section

open scoped BigOperators

namespace Cert.KernelIdeal.Layer1

open Cert.KernelIdeal Cert.KernelIdeal.Gen Idealize.ShloMosaic Idealize.ShloMosaic.TcCoe Idealize.SL.Sem
open Idealize.ShloMosaic.ValueIdx Idealize.ShloMosaic.Pipeline Cert.Bridge.Layer

variable (V : (c : Dev nD) → (b : Ref sig .tc) → Buf (Elt Ideal) ((c : Thread nD τ).loc b))

theorem hz : (![0, 0] : Fin 2 → Nat) = fun _ => 0 := funext fun a => by fin_cases a <;> rfl

/-- The body's value at row p and feature q of a block: the layer's value of the loaded blocks, then the maximum
    with zero. -/
theorem pay_apply (v0 v3 : Vec Ideal S5000x64 .f32) (v5 v7 : Vec Ideal S64x128 .f32) (v12 : Vec Ideal S1x128 .f32)
    (p : Fin 5000) (q : Fin 128) :
    k0_pay1 v0 v3 v5 v7 v12 (ix2 p q) = relu (affine v0 v3 v5 v7 (fun q => v12 (ix2 (0 : Fin 1) q)) p q) := by
  have e : k0_pay1 v0 v3 v5 v7 v12
      = maximumf (addf (addf (matmul (DotDims.plain 5000 64 128) none (shapeCast S5000x64 v0 shapeCasts_S5000x64_S5000x64) v5
            (constant S5000x128 .f32 0x00000000#32))
          (matmul (DotDims.plain 5000 64 128) none v3 v7 (constant S5000x128 .f32 0x00000000#32)))
        (broadcastTo S5000x128 (shapeCast S1x128 v12 shapeCasts_S1x128_S1x128) broadcasts_S1x128_S5000x128))
        (broadcast S5000x128 (Scalar.ofBits (F := Ideal) .f32 0x00000000#32)) := rfl
  rw [e, shapeCast_self, shapeCast_self]
  refine (congrArg (fun z => max z (Ideal.ofBits .f32 0x00000000#32))
    (body_apply v0 v3 v5 v7 v12 broadcasts_S1x128_S5000x128 p q)).trans ?_
  rw [Ideal.ofBits_zero_f32]
  rfl

/-- The printed index maps over the grid: the row-blocked windows sit at block t, the whole-array windows at 0. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-- Row p of point t's block of the aggregated features is row 5000·t + p of the array. -/
theorem read_agg (c : Dev nD) (t : Fin cfg0.N) (p : Fin 5000) (r : Fin 100000) (hr : r.val = t.val * 5000 + p.val) (k : Fin 64) :
    iblk0 V c 0 t (ix2 p k) = V c main_v24 (ix2 r k) := by
  obtain ⟨e0, e1, -⟩ := idx_facts t
  show V c main_v24 (((cfg0.win 0).blk t).view.emb (ix2 p k)) = V c main_v24 (ix2 r k)
  refine congrArg (V c main_v24) (funext fun a => Fin.ext ?_)
  match a with
  | ⟨0, _⟩ => show win0_0.index t (0 : Fin 2) * 5000 + 1 * p.val = r.val; omega
  | ⟨1, _⟩ => show win0_0.index t (1 : Fin 2) * 64 + 1 * k.val = k.val; omega

/-- Row p of point t's block of the node features is row 5000·t + p of the array. -/
theorem read_x (c : Dev nD) (t : Fin cfg0.N) (p : Fin 5000) (r : Fin 100000) (hr : r.val = t.val * 5000 + p.val) (k : Fin 64) :
    iblk0 V c 1 t (ix2 p k) = V c main_arg0 (ix2 r k) := by
  obtain ⟨-, -, e2, e3, -⟩ := idx_facts t
  show V c main_arg0 (((cfg0.win 1).blk t).view.emb (ix2 p k)) = V c main_arg0 (ix2 r k)
  refine congrArg (V c main_arg0) (funext fun a => Fin.ext ?_)
  match a with
  | ⟨0, _⟩ => show win0_1.index t (0 : Fin 2) * 5000 + 1 * p.val = r.val; omega
  | ⟨1, _⟩ => show win0_1.index t (1 : Fin 2) * 64 + 1 * k.val = k.val; omega

/-- The neighbour weights are read whole at every point. -/
theorem read_wl (c : Dev nD) (t : Fin cfg0.N) (k : Fin 64) (q : Fin 128) :
    iblk0 V c 2 t (ix2 k q) = V c main_arg3 (ix2 k q) := by
  obtain ⟨-, -, -, -, e4, e5, -⟩ := idx_facts t
  show V c main_arg3 (((cfg0.win 2).blk t).view.emb (ix2 k q)) = V c main_arg3 (ix2 k q)
  refine congrArg (V c main_arg3) (funext fun a => Fin.ext ?_)
  match a with
  | ⟨0, _⟩ => show win0_2.index t (0 : Fin 2) * 64 + 1 * k.val = k.val; omega
  | ⟨1, _⟩ => show win0_2.index t (1 : Fin 2) * 128 + 1 * q.val = q.val; omega

/-- The bias row is read whole at every point. -/
theorem read_bias (c : Dev nD) (t : Fin cfg0.N) (q : Fin 128) :
    iblk0 V c 3 t (ix2 (0 : Fin 1) q) = V c main_v25 (ix2 (0 : Fin 1) q) := by
  obtain ⟨-, -, -, -, -, -, e6, e7, -⟩ := idx_facts t
  show V c main_v25 (((cfg0.win 3).blk t).view.emb (ix2 (0 : Fin 1) q)) = V c main_v25 (ix2 (0 : Fin 1) q)
  refine congrArg (V c main_v25) (funext fun a => Fin.ext ?_)
  match a with
  | ⟨0, _⟩ => show win0_3.index t (0 : Fin 2) * 1 + 1 * 0 = 0; omega
  | ⟨1, _⟩ => show win0_3.index t (1 : Fin 2) * 128 + 1 * q.val = q.val; omega

/-- The root weights are read whole at every point. -/
theorem read_wr (c : Dev nD) (t : Fin cfg0.N) (k : Fin 64) (q : Fin 128) :
    iblk0 V c 4 t (ix2 k q) = V c main_arg5 (ix2 k q) := by
  obtain ⟨-, -, -, -, -, -, -, -, e8, e9, -⟩ := idx_facts t
  show V c main_arg5 (((cfg0.win 4).blk t).view.emb (ix2 k q)) = V c main_arg5 (ix2 k q)
  refine congrArg (V c main_arg5) (funext fun a => Fin.ext ?_)
  match a with
  | ⟨0, _⟩ => show win0_4.index t (0 : Fin 2) * 64 + 1 * k.val = k.val; omega
  | ⟨1, _⟩ => show win0_4.index t (1 : Fin 2) * 128 + 1 * q.val = q.val; omega

/-- What point t writes back is block t of the whole layer, of the arrays as the launch finds them. -/
theorem flushed_eq (c : Dev nD) (t : Fin cfg0.N) :
    (dat0 V c).flushed 5 t = ((cfg0.win 5).blk t).view.read (Elt Ideal)
      (layer relu (V c main_v24) (V c main_arg0) (V c main_arg3) (V c main_v25) (V c main_arg5)) := by
  show (cfg0.win 5).cut (grid0.coords t) ((dat0 V c).after 5 t) = _
  rw [after0_5]
  unfold out0_5
  rw [View.canon_unit_zero hz]
  simp only [View.ld_unit_zero (S := S5000x64) hz, View.ld_unit_zero (S := S64x128) hz, View.ld_unit_zero (S := S1x128) hz]
  obtain ⟨-, -, -, -, -, -, -, -, -, -, e10, e11⟩ := idx_facts t
  have hN : grid0.N = 20 := N_0
  have ht : t.val < grid0.N := t.isLt
  funext j
  obtain ⟨p, q, rfl⟩ : ∃ (p : Fin 5000) (q : Fin 128), j = ix2 p q := ⟨j 0, j 1, eq_ix2 j⟩
  refine (pay_apply (iblk0 V c 0 t) (iblk0 V c 1 t) (iblk0 V c 2 t) (iblk0 V c 4 t) (iblk0 V c 3 t) p q).trans ?_
  have hp : p.val < 5000 := p.isLt
  let r : Fin 100000 := ⟨t.val * 5000 + p.val, by omega⟩
  have hr0 : (((cfg0.win 5).blk t).view.emb (ix2 p q)) 0 = r :=
    Fin.ext (by show win0_5.index t (0 : Fin 2) * 5000 + 1 * p.val = t.val * 5000 + p.val; omega)
  have hq1 : (((cfg0.win 5).blk t).view.emb (ix2 p q)) 1 = q :=
    Fin.ext (by show win0_5.index t (1 : Fin 2) * 128 + 1 * q.val = q.val; omega)
  show _ = relu (affine (V c main_v24) (V c main_arg0) (V c main_arg3) (V c main_arg5) (fun q => V c main_v25 (ix2 (0 : Fin 1) q))
    ((((cfg0.win 5).blk t).view.emb (ix2 p q)) 0) ((((cfg0.win 5).blk t).view.emb (ix2 p q)) 1))
  rw [hr0, hq1]
  refine congrArg relu ?_
  unfold affine
  simp only [read_agg V c t p r rfl, read_x V c t p r rfl, read_wl V c t, read_bias V c t, read_wr V c t]

/-- An index of the output array is in point t's block iff its row is one of the block's 5000 rows. -/
theorem mem_blk (t : Fin cfg0.N) (i : S100000x128.Idx) :
    i ∈ ((cfg0.win 5).blk t).view.set ↔ ∀ a : Fin 2, win0_5.index t a * S5000x128.size a ≤ (i a).val
      ∧ (i a).val < win0_5.index t a * S5000x128.size a + S5000x128.size a := by
  show i ∈ ((View.whole main_v26).slice (win0_5.rect t)).set ↔ _
  rw [View.set_slice_whole, Rect.mem_set_unit]
  exact Iff.rfl

/-- Every index of the output array is in the block of the point that holds its row: point (row / 5000). -/
theorem cover (i : S100000x128.Idx) : ∃ t : Fin cfg0.N, (cfg0.win 5).flush t = true ∧ i ∈ ((cfg0.win 5).blk t).view.set := by
  have hN : grid0.N = 20 := N_0
  have hi0 : (i 0).val < 100000 := (i 0).isLt
  have hi1 : (i 1).val < 128 := (i 1).isLt
  let t : Fin cfg0.N := ⟨(i 0).val / 5000, by show (i 0).val / 5000 < grid0.N; omega⟩
  obtain ⟨-, -, -, -, -, -, -, -, -, -, e10, e11⟩ := idx_facts t
  have htv : t.val = (i 0).val / 5000 := rfl
  refine ⟨t, flush0_5 t, ?_⟩
  rw [mem_blk]
  intro a
  match a with
  | ⟨0, _⟩ => show win0_5.index t (0 : Fin 2) * 5000 ≤ (i 0).val ∧ (i 0).val < win0_5.index t (0 : Fin 2) * 5000 + 5000; omega
  | ⟨1, _⟩ => show win0_5.index t (1 : Fin 2) * 128 ≤ (i 1).val ∧ (i 1).val < win0_5.index t (1 : Fin 2) * 128 + 128; omega

/-- After the launch the output array is the whole layer of the arrays as the launch finds them. -/
theorem final (c : Dev nD) :
    (dat0 V c).arrAt 5 cfg0.N
      = layer relu (V c main_v24) (V c main_arg0) (V c main_arg3) (V c main_v25) (V c main_arg5) :=
  (dat0 V c).arrAt_eq_of_cover 5 _ (fun t _ => flushed_eq V c t) cover

end Cert.KernelIdeal.Layer1

end
-- ==== Proof.Region1.lean ====
/-
  The second layer's kernel, from blocks to the whole array. As in the first layer the kernel runs over 20 grid points;
  point t reads rows 5000·t … 5000·t + 4999 of the aggregated features and of the previous layer's output (both 128
  features wide now), reads the two weight matrices and the bias row whole, and writes the same rows of its output. Each
  written block is the restriction of the whole layer, and the 20 blocks tile the 100000 rows.
-/
import proofs.«175460_j79869211836878_1_alg».proof.Proof.Gen.KernelIdeal.Frame
import proofs.«175460_j79869211836878_1_alg».proof.Proof.Layer
import Idealize.ShloMosaic.Lib.Pipeline.Value
import Idealize.ShloMosaic.Lib.ValueIdx

set_option maxRecDepth 16384

noncomputable section

open scoped BigOperators

namespace Cert.KernelIdeal.Layer2

open Cert.KernelIdeal Cert.KernelIdeal.Gen Idealize.ShloMosaic Idealize.ShloMosaic.TcCoe Idealize.SL.Sem
open Idealize.ShloMosaic.ValueIdx Idealize.ShloMosaic.Pipeline Cert.Bridge.Layer

variable (V : (c : Dev nD) → (b : Ref sig .tc) → Buf (Elt Ideal) ((c : Thread nD τ).loc b))

theorem hz : (![0, 0] : Fin 2 → Nat) = fun _ => 0 := funext fun a => by fin_cases a <;> rfl

/-- The body's value at row p and feature q of a block: the layer's value of the loaded blocks, then the maximum
    with zero. -/
theorem pay_apply (v0 v3 : Vec Ideal S5000x128 .f32) (v5 v7 : Vec Ideal S128x128 .f32) (v12 : Vec Ideal S1x128 .f32)
    (p : Fin 5000) (q : Fin 128) :
    k1_pay1 v0 v3 v5 v7 v12 (ix2 p q) = relu (affine v0 v3 v5 v7 (fun q => v12 (ix2 (0 : Fin 1) q)) p q) := by
  have e : k1_pay1 v0 v3 v5 v7 v12
      = maximumf (addf (addf (matmul (DotDims.plain 5000 128 128) none (shapeCast S5000x128 v0 shapeCasts_S5000x128_S5000x128) v5
            (constant S5000x128 .f32 0x00000000#32))
          (matmul (DotDims.plain 5000 128 128) none (shapeCast S5000x128 v3 shapeCasts_S5000x128_S5000x128) v7
            (constant S5000x128 .f32 0x00000000#32)))
        (broadcastTo S5000x128 (shapeCast S1x128 v12 shapeCasts_S1x128_S1x128) broadcasts_S1x128_S5000x128))
        (broadcast S5000x128 (Scalar.ofBits (F := Ideal) .f32 0x00000000#32)) := rfl
  rw [e, shapeCast_self, shapeCast_self, shapeCast_self]
  refine (congrArg (fun z => max z (Ideal.ofBits .f32 0x00000000#32))
    (body_apply v0 v3 v5 v7 v12 broadcasts_S1x128_S5000x128 p q)).trans ?_
  rw [Ideal.ofBits_zero_f32]
  rfl

/-- The printed index maps over the grid: the row-blocked windows sit at block t, the whole-array windows at 0. -/
theorem idx_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

/-- Row p of point t's block of the aggregated features is row 5000·t + p of the array. -/
theorem read_agg (c : Dev nD) (t : Fin cfg1.N) (p : Fin 5000) (r : Fin 100000) (hr : r.val = t.val * 5000 + p.val) (k : Fin 128) :
    iblk1 V c 0 t (ix2 p k) = V c main_v38 (ix2 r k) := by
  obtain ⟨e0, e1, -⟩ := idx_facts t
  show V c main_v38 (((cfg1.win 0).blk t).view.emb (ix2 p k)) = V c main_v38 (ix2 r k)
  refine congrArg (V c main_v38) (funext fun a => Fin.ext ?_)
  match a with
  | ⟨0, _⟩ => show win1_0.index t (0 : Fin 2) * 5000 + 1 * p.val = r.val; omega
  | ⟨1, _⟩ => show win1_0.index t (1 : Fin 2) * 128 + 1 * k.val = k.val; omega

/-- Row p of point t's block of the node features is row 5000·t + p of the array. -/
theorem read_x (c : Dev nD) (t : Fin cfg1.N) (p : Fin 5000) (r : Fin 100000) (hr : r.val = t.val * 5000 + p.val) (k : Fin 128) :
    iblk1 V c 1 t (ix2 p k) = V c main_v26 (ix2 r k) := by
  obtain ⟨-, -, e2, e3, -⟩ := idx_facts t
  show V c main_v26 (((cfg1.win 1).blk t).view.emb (ix2 p k)) = V c main_v26 (ix2 r k)
  refine congrArg (V c main_v26) (funext fun a => Fin.ext ?_)
  match a with
  | ⟨0, _⟩ => show win1_1.index t (0 : Fin 2) * 5000 + 1 * p.val = r.val; omega
  | ⟨1, _⟩ => show win1_1.index t (1 : Fin 2) * 128 + 1 * k.val = k.val; omega

/-- The neighbour weights are read whole at every point. -/
theorem read_wl (c : Dev nD) (t : Fin cfg1.N) (k : Fin 128) (q : Fin 128) :
    iblk1 V c 2 t (ix2 k q) = V c main_arg6 (ix2 k q) := by
  obtain ⟨-, -, -, -, e4, e5, -⟩ := idx_facts t
  show V c main_arg6 (((cfg1.win 2).blk t).view.emb (ix2 k q)) = V c main_arg6 (ix2 k q)
  refine congrArg (V c main_arg6) (funext fun a => Fin.ext ?_)
  match a with
  | ⟨0, _⟩ => show win1_2.index t (0 : Fin 2) * 128 + 1 * k.val = k.val; omega
  | ⟨1, _⟩ => show win1_2.index t (1 : Fin 2) * 128 + 1 * q.val = q.val; omega

/-- The bias row is read whole at every point. -/
theorem read_bias (c : Dev nD) (t : Fin cfg1.N) (q : Fin 128) :
    iblk1 V c 3 t (ix2 (0 : Fin 1) q) = V c main_v39 (ix2 (0 : Fin 1) q) := by
  obtain ⟨-, -, -, -, -, -, e6, e7, -⟩ := idx_facts t
  show V c main_v39 (((cfg1.win 3).blk t).view.emb (ix2 (0 : Fin 1) q)) = V c main_v39 (ix2 (0 : Fin 1) q)
  refine congrArg (V c main_v39) (funext fun a => Fin.ext ?_)
  match a with
  | ⟨0, _⟩ => show win1_3.index t (0 : Fin 2) * 1 + 1 * 0 = 0; omega
  | ⟨1, _⟩ => show win1_3.index t (1 : Fin 2) * 128 + 1 * q.val = q.val; omega

/-- The root weights are read whole at every point. -/
theorem read_wr (c : Dev nD) (t : Fin cfg1.N) (k : Fin 128) (q : Fin 128) :
    iblk1 V c 4 t (ix2 k q) = V c main_arg8 (ix2 k q) := by
  obtain ⟨-, -, -, -, -, -, -, -, e8, e9, -⟩ := idx_facts t
  show V c main_arg8 (((cfg1.win 4).blk t).view.emb (ix2 k q)) = V c main_arg8 (ix2 k q)
  refine congrArg (V c main_arg8) (funext fun a => Fin.ext ?_)
  match a with
  | ⟨0, _⟩ => show win1_4.index t (0 : Fin 2) * 128 + 1 * k.val = k.val; omega
  | ⟨1, _⟩ => show win1_4.index t (1 : Fin 2) * 128 + 1 * q.val = q.val; omega

/-- What point t writes back is block t of the whole layer, of the arrays as the launch finds them. -/
theorem flushed_eq (c : Dev nD) (t : Fin cfg1.N) :
    (dat1 V c).flushed 5 t = ((cfg1.win 5).blk t).view.read (Elt Ideal)
      (layer relu (V c main_v38) (V c main_v26) (V c main_arg6) (V c main_v39) (V c main_arg8)) := by
  show (cfg1.win 5).cut (grid1.coords t) ((dat1 V c).after 5 t) = _
  rw [after1_5]
  unfold out1_5
  rw [View.canon_unit_zero hz]
  simp only [View.ld_unit_zero (S := S5000x128) hz, View.ld_unit_zero (S := S128x128) hz, View.ld_unit_zero (S := S1x128) hz]
  obtain ⟨-, -, -, -, -, -, -, -, -, -, e10, e11⟩ := idx_facts t
  have hN : grid1.N = 20 := N_1
  have ht : t.val < grid1.N := t.isLt
  funext j
  obtain ⟨p, q, rfl⟩ : ∃ (p : Fin 5000) (q : Fin 128), j = ix2 p q := ⟨j 0, j 1, eq_ix2 j⟩
  refine (pay_apply (iblk1 V c 0 t) (iblk1 V c 1 t) (iblk1 V c 2 t) (iblk1 V c 4 t) (iblk1 V c 3 t) p q).trans ?_
  have hp : p.val < 5000 := p.isLt
  let r : Fin 100000 := ⟨t.val * 5000 + p.val, by omega⟩
  have hr0 : (((cfg1.win 5).blk t).view.emb (ix2 p q)) 0 = r :=
    Fin.ext (by show win1_5.index t (0 : Fin 2) * 5000 + 1 * p.val = t.val * 5000 + p.val; omega)
  have hq1 : (((cfg1.win 5).blk t).view.emb (ix2 p q)) 1 = q :=
    Fin.ext (by show win1_5.index t (1 : Fin 2) * 128 + 1 * q.val = q.val; omega)
  show _ = relu (affine (V c main_v38) (V c main_v26) (V c main_arg6) (V c main_arg8) (fun q => V c main_v39 (ix2 (0 : Fin 1) q))
    ((((cfg1.win 5).blk t).view.emb (ix2 p q)) 0) ((((cfg1.win 5).blk t).view.emb (ix2 p q)) 1))
  rw [hr0, hq1]
  refine congrArg relu ?_
  unfold affine
  simp only [read_agg V c t p r rfl, read_x V c t p r rfl, read_wl V c t, read_bias V c t, read_wr V c t]

/-- An index of the output array is in point t's block iff its row is one of the block's 5000 rows. -/
theorem mem_blk (t : Fin cfg1.N) (i : S100000x128.Idx) :
    i ∈ ((cfg1.win 5).blk t).view.set ↔ ∀ a : Fin 2, win1_5.index t a * S5000x128.size a ≤ (i a).val
      ∧ (i a).val < win1_5.index t a * S5000x128.size a + S5000x128.size a := by
  show i ∈ ((View.whole main_v40).slice (win1_5.rect t)).set ↔ _
  rw [View.set_slice_whole, Rect.mem_set_unit]
  exact Iff.rfl

/-- Every index of the output array is in the block of the point that holds its row: point (row / 5000). -/
theorem cover (i : S100000x128.Idx) : ∃ t : Fin cfg1.N, (cfg1.win 5).flush t = true ∧ i ∈ ((cfg1.win 5).blk t).view.set := by
  have hN : grid1.N = 20 := N_1
  have hi0 : (i 0).val < 100000 := (i 0).isLt
  have hi1 : (i 1).val < 128 := (i 1).isLt
  let t : Fin cfg1.N := ⟨(i 0).val / 5000, by show (i 0).val / 5000 < grid1.N; omega⟩
  obtain ⟨-, -, -, -, -, -, -, -, -, -, e10, e11⟩ := idx_facts t
  have htv : t.val = (i 0).val / 5000 := rfl
  refine ⟨t, flush1_5 t, ?_⟩
  rw [mem_blk]
  intro a
  match a with
  | ⟨0, _⟩ => show win1_5.index t (0 : Fin 2) * 5000 ≤ (i 0).val ∧ (i 0).val < win1_5.index t (0 : Fin 2) * 5000 + 5000; omega
  | ⟨1, _⟩ => show win1_5.index t (1 : Fin 2) * 128 ≤ (i 1).val ∧ (i 1).val < win1_5.index t (1 : Fin 2) * 128 + 128; omega

/-- After the launch the output array is the whole layer of the arrays as the launch finds them. -/
theorem final (c : Dev nD) :
    (dat1 V c).arrAt 5 cfg1.N
      = layer relu (V c main_v38) (V c main_v26) (V c main_arg6) (V c main_v39) (V c main_arg8) :=
  (dat1 V c).arrAt_eq_of_cover 5 _ (fun t _ => flushed_eq V c t) cover

end Cert.KernelIdeal.Layer2

end
-- ==== Proof.Region2.lean ====
/-
  The third layer's kernel, from blocks to the whole array. It is the second layer's without the maximum with zero:
  point t of 20 reads rows 5000·t … 5000·t + 4999 of the aggregated features and of the second layer's output, the two
  weight matrices and the bias row whole, and writes the same rows of its output; the blocks tile the 100000 rows.
-/
import proofs.«175460_j79869211836878_1_alg».proof.Proof.Gen.KernelIdeal.Frame
import proofs.«175460_j79869211836878_1_alg».proof.Proof.Layer
import Idealize.ShloMosaic.Lib.Pipeline.Value
import Idealize.ShloMosaic.Lib.ValueIdx

set_option maxRecDepth 16384

noncomputable section

open scoped BigOperators

namespace Cert.KernelIdeal.Layer3

open Cert.KernelIdeal Cert.KernelIdeal.Gen Idealize.ShloMosaic Idealize.ShloMosaic.TcCoe Idealize.SL.Sem
open Idealize.ShloMosaic.ValueIdx Idealize.ShloMosaic.Pipeline Cert.Bridge.Layer

variable (V : (c : Dev nD) → (b : Ref sig .tc) → Buf (Elt Ideal) ((c : Thread nD τ).loc b))

theorem hz : (![0, 0] : Fin 2 → Nat) = fun _ => 0 := funext fun a => by fin_cases a <;> rfl

/-- The body's value at row p and feature q of a block: the layer's value of the loaded blocks. -/
theorem pay_apply (v0 v3 : Vec Ideal S5000x128 .f32) (v5 v7 : Vec Ideal S128x128 .f32) (v12 : Vec Ideal S1x128 .f32)
    (p : Fin 5000) (q : Fin 128) :
    k2_pay1 v0 v3 v5 v7 v12 (ix2 p q) = (affine v0 v3 v5 v7 (fun q => v12 (ix2 (0 : Fin 1) q)) p q) := by
  have e : k2_pay1 v0 v3 v5 v7 v12
      = addf (addf (matmul (DotDims.plain 5000 128 128) none (shapeCast S5000x128 v0 shapeCasts_S5000x128_S5000x128) v5
            (constant S5000x128 .f32 0x00000000#32))
          (matmul (DotDims.plain 5000 128 128) none (shapeCast S5000x128 v3 shapeCasts_S5000x128_S5000x128) v7
            (constant S5000x128 .f32 0x00000000#32)))
        (broadcastTo S5000x128 (shapeCast S1x128 v12 shapeCasts_S1x128_S1x128) broadcasts_S1x128_S5000x128) := rfl
  rw [e, shapeCast_self, shapeCast_self, shapeCast_self]
  exact body_apply v0 v3 v5 v7 v12 broadcasts_S1x128_S5000x128 p q

/-- The printed index maps over the grid: the row-blocked windows sit at block t, the whole-array windows at 0. -/
theorem idx_facts : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = t.val ∧ win2_5.index t (1 : Fin 2) = 0 :=
  (by decide +kernel : ∀ t : Fin grid2.N, _)

/-- Row p of point t's block of the aggregated features is row 5000·t + p of the array. -/
theorem read_agg (c : Dev nD) (t : Fin cfg2.N) (p : Fin 5000) (r : Fin 100000) (hr : r.val = t.val * 5000 + p.val) (k : Fin 128) :
    iblk2 V c 0 t (ix2 p k) = V c main_v52 (ix2 r k) := by
  obtain ⟨e0, e1, -⟩ := idx_facts t
  show V c main_v52 (((cfg2.win 0).blk t).view.emb (ix2 p k)) = V c main_v52 (ix2 r k)
  refine congrArg (V c main_v52) (funext fun a => Fin.ext ?_)
  match a with
  | ⟨0, _⟩ => show win2_0.index t (0 : Fin 2) * 5000 + 1 * p.val = r.val; omega
  | ⟨1, _⟩ => show win2_0.index t (1 : Fin 2) * 128 + 1 * k.val = k.val; omega

/-- Row p of point t's block of the node features is row 5000·t + p of the array. -/
theorem read_x (c : Dev nD) (t : Fin cfg2.N) (p : Fin 5000) (r : Fin 100000) (hr : r.val = t.val * 5000 + p.val) (k : Fin 128) :
    iblk2 V c 1 t (ix2 p k) = V c main_v40 (ix2 r k) := by
  obtain ⟨-, -, e2, e3, -⟩ := idx_facts t
  show V c main_v40 (((cfg2.win 1).blk t).view.emb (ix2 p k)) = V c main_v40 (ix2 r k)
  refine congrArg (V c main_v40) (funext fun a => Fin.ext ?_)
  match a with
  | ⟨0, _⟩ => show win2_1.index t (0 : Fin 2) * 5000 + 1 * p.val = r.val; omega
  | ⟨1, _⟩ => show win2_1.index t (1 : Fin 2) * 128 + 1 * k.val = k.val; omega

/-- The neighbour weights are read whole at every point. -/
theorem read_wl (c : Dev nD) (t : Fin cfg2.N) (k : Fin 128) (q : Fin 128) :
    iblk2 V c 2 t (ix2 k q) = V c main_arg9 (ix2 k q) := by
  obtain ⟨-, -, -, -, e4, e5, -⟩ := idx_facts t
  show V c main_arg9 (((cfg2.win 2).blk t).view.emb (ix2 k q)) = V c main_arg9 (ix2 k q)
  refine congrArg (V c main_arg9) (funext fun a => Fin.ext ?_)
  match a with
  | ⟨0, _⟩ => show win2_2.index t (0 : Fin 2) * 128 + 1 * k.val = k.val; omega
  | ⟨1, _⟩ => show win2_2.index t (1 : Fin 2) * 128 + 1 * q.val = q.val; omega

/-- The bias row is read whole at every point. -/
theorem read_bias (c : Dev nD) (t : Fin cfg2.N) (q : Fin 128) :
    iblk2 V c 3 t (ix2 (0 : Fin 1) q) = V c main_v53 (ix2 (0 : Fin 1) q) := by
  obtain ⟨-, -, -, -, -, -, e6, e7, -⟩ := idx_facts t
  show V c main_v53 (((cfg2.win 3).blk t).view.emb (ix2 (0 : Fin 1) q)) = V c main_v53 (ix2 (0 : Fin 1) q)
  refine congrArg (V c main_v53) (funext fun a => Fin.ext ?_)
  match a with
  | ⟨0, _⟩ => show win2_3.index t (0 : Fin 2) * 1 + 1 * 0 = 0; omega
  | ⟨1, _⟩ => show win2_3.index t (1 : Fin 2) * 128 + 1 * q.val = q.val; omega

/-- The root weights are read whole at every point. -/
theorem read_wr (c : Dev nD) (t : Fin cfg2.N) (k : Fin 128) (q : Fin 128) :
    iblk2 V c 4 t (ix2 k q) = V c main_arg11 (ix2 k q) := by
  obtain ⟨-, -, -, -, -, -, -, -, e8, e9, -⟩ := idx_facts t
  show V c main_arg11 (((cfg2.win 4).blk t).view.emb (ix2 k q)) = V c main_arg11 (ix2 k q)
  refine congrArg (V c main_arg11) (funext fun a => Fin.ext ?_)
  match a with
  | ⟨0, _⟩ => show win2_4.index t (0 : Fin 2) * 128 + 1 * k.val = k.val; omega
  | ⟨1, _⟩ => show win2_4.index t (1 : Fin 2) * 128 + 1 * q.val = q.val; omega

/-- What point t writes back is block t of the whole layer, of the arrays as the launch finds them. -/
theorem flushed_eq (c : Dev nD) (t : Fin cfg2.N) :
    (dat2 V c).flushed 5 t = ((cfg2.win 5).blk t).view.read (Elt Ideal)
      (layer (fun z => z) (V c main_v52) (V c main_v40) (V c main_arg9) (V c main_v53) (V c main_arg11)) := by
  show (cfg2.win 5).cut (grid2.coords t) ((dat2 V c).after 5 t) = _
  rw [after2_5]
  unfold out2_5
  rw [View.canon_unit_zero hz]
  simp only [View.ld_unit_zero (S := S5000x128) hz, View.ld_unit_zero (S := S128x128) hz, View.ld_unit_zero (S := S1x128) hz]
  obtain ⟨-, -, -, -, -, -, -, -, -, -, e10, e11⟩ := idx_facts t
  have hN : grid2.N = 20 := N_2
  have ht : t.val < grid2.N := t.isLt
  funext j
  obtain ⟨p, q, rfl⟩ : ∃ (p : Fin 5000) (q : Fin 128), j = ix2 p q := ⟨j 0, j 1, eq_ix2 j⟩
  refine (pay_apply (iblk2 V c 0 t) (iblk2 V c 1 t) (iblk2 V c 2 t) (iblk2 V c 4 t) (iblk2 V c 3 t) p q).trans ?_
  have hp : p.val < 5000 := p.isLt
  let r : Fin 100000 := ⟨t.val * 5000 + p.val, by omega⟩
  have hr0 : (((cfg2.win 5).blk t).view.emb (ix2 p q)) 0 = r :=
    Fin.ext (by show win2_5.index t (0 : Fin 2) * 5000 + 1 * p.val = t.val * 5000 + p.val; omega)
  have hq1 : (((cfg2.win 5).blk t).view.emb (ix2 p q)) 1 = q :=
    Fin.ext (by show win2_5.index t (1 : Fin 2) * 128 + 1 * q.val = q.val; omega)
  show _ = (affine (V c main_v52) (V c main_v40) (V c main_arg9) (V c main_arg11) (fun q => V c main_v53 (ix2 (0 : Fin 1) q))
    ((((cfg2.win 5).blk t).view.emb (ix2 p q)) 0) ((((cfg2.win 5).blk t).view.emb (ix2 p q)) 1))
  rw [hr0, hq1]
  unfold affine
  simp only [read_agg V c t p r rfl, read_x V c t p r rfl, read_wl V c t, read_bias V c t, read_wr V c t]

/-- An index of the output array is in point t's block iff its row is one of the block's 5000 rows. -/
theorem mem_blk (t : Fin cfg2.N) (i : S100000x128.Idx) :
    i ∈ ((cfg2.win 5).blk t).view.set ↔ ∀ a : Fin 2, win2_5.index t a * S5000x128.size a ≤ (i a).val
      ∧ (i a).val < win2_5.index t a * S5000x128.size a + S5000x128.size a := by
  show i ∈ ((View.whole main_v54).slice (win2_5.rect t)).set ↔ _
  rw [View.set_slice_whole, Rect.mem_set_unit]
  exact Iff.rfl

/-- Every index of the output array is in the block of the point that holds its row: point (row / 5000). -/
theorem cover (i : S100000x128.Idx) : ∃ t : Fin cfg2.N, (cfg2.win 5).flush t = true ∧ i ∈ ((cfg2.win 5).blk t).view.set := by
  have hN : grid2.N = 20 := N_2
  have hi0 : (i 0).val < 100000 := (i 0).isLt
  have hi1 : (i 1).val < 128 := (i 1).isLt
  let t : Fin cfg2.N := ⟨(i 0).val / 5000, by show (i 0).val / 5000 < grid2.N; omega⟩
  obtain ⟨-, -, -, -, -, -, -, -, -, -, e10, e11⟩ := idx_facts t
  have htv : t.val = (i 0).val / 5000 := rfl
  refine ⟨t, flush2_5 t, ?_⟩
  rw [mem_blk]
  intro a
  match a with
  | ⟨0, _⟩ => show win2_5.index t (0 : Fin 2) * 5000 ≤ (i 0).val ∧ (i 0).val < win2_5.index t (0 : Fin 2) * 5000 + 5000; omega
  | ⟨1, _⟩ => show win2_5.index t (1 : Fin 2) * 128 ≤ (i 1).val ∧ (i 1).val < win2_5.index t (1 : Fin 2) * 128 + 128; omega

/-- After the launch the output array is the whole layer of the arrays as the launch finds them. -/
theorem final (c : Dev nD) :
    (dat2 V c).arrAt 5 cfg2.N
      = layer (fun z => z) (V c main_v52) (V c main_v40) (V c main_arg9) (V c main_v53) (V c main_arg11) :=
  (dat2 V c).arrAt_eq_of_cover 5 _ (fun t _ => flushed_eq V c t) cover

end Cert.KernelIdeal.Layer3

end
-- ==== Proof.Region3.lean ====
/-
  The final kernel, from its one block to the whole array. The kernel has a single grid point: it reads the pooled
  features (512 graphs by 128 features), the output weights (128 by 16) and the bias row whole, and writes the whole
  512 by 16 result: the pooled features through the weights plus the bias. One block covers the array, so the result
  array is that function everywhere.
-/
import proofs.«175460_j79869211836878_1_alg».proof.Proof.Gen.KernelIdeal.Frame
import proofs.«175460_j79869211836878_1_alg».proof.Proof.Layer
import Idealize.ShloMosaic.Lib.Pipeline.Value
import Idealize.ShloMosaic.Lib.ValueIdx

set_option maxRecDepth 16384

noncomputable section

open scoped BigOperators

namespace Cert.KernelIdeal.Head

open Cert.KernelIdeal Cert.KernelIdeal.Gen Idealize.ShloMosaic Idealize.ShloMosaic.TcCoe Idealize.SL.Sem
open Idealize.ShloMosaic.ValueIdx Idealize.ShloMosaic.Pipeline Cert.Bridge.Layer

variable (V : (c : Dev nD) → (b : Ref sig .tc) → Buf (Elt Ideal) ((c : Thread nD τ).loc b))

theorem hz : (![0, 0] : Fin 2 → Nat) = fun _ => 0 := funext fun a => by fin_cases a <;> rfl

/-- The body's value at graph p and class q: the linear map of the loaded arrays. -/
theorem pay_apply (v0 : Vec Ideal S512x128 .f32) (v3 : Vec Ideal S128x16 .f32) (v6 : Vec Ideal S1x16 .f32)
    (p : Fin 512) (q : Fin 16) :
    k3_pay1 v0 v3 v6 (ix2 p q) = linear v0 v3 (fun q => v6 (ix2 (0 : Fin 1) q)) p q := by
  have e : k3_pay1 v0 v3 v6
      = addf (matmul (DotDims.plain 512 128 16) none (shapeCast S512x128 v0 shapeCasts_S512x128_S512x128) v3
            (constant S512x16 .f32 0x00000000#32))
        (broadcastTo S512x16 (shapeCast S1x16 v6 shapeCasts_S1x16_S1x16) broadcasts_S1x16_S512x16) := rfl
  rw [e, shapeCast_self, shapeCast_self]
  exact body1_apply v0 v3 v6 broadcasts_S1x16_S512x16 p q

/-- The printed index maps at the one grid point: every window sits at block 0. -/
theorem idx_facts : ∀ t : Fin cfg3.N,
    win3_0.index t (0 : Fin 2) = 0 ∧ win3_0.index t (1 : Fin 2) = 0
    ∧ win3_1.index t (0 : Fin 2) = 0 ∧ win3_1.index t (1 : Fin 2) = 0
    ∧ win3_2.index t (0 : Fin 2) = 0 ∧ win3_2.index t (1 : Fin 2) = 0
    ∧ win3_3.index t (0 : Fin 2) = 0 ∧ win3_3.index t (1 : Fin 2) = 0 :=
  (by decide +kernel : ∀ t : Fin grid3.N, _)

/-- The pooled features are read whole. -/
theorem read_g (c : Dev nD) (t : Fin cfg3.N) (p : Fin 512) (k : Fin 128) :
    iblk3 V c 0 t (ix2 p k) = V c main_v66 (ix2 p k) := by
  obtain ⟨e0, e1, -⟩ := idx_facts t
  show V c main_v66 (((cfg3.win 0).blk t).view.emb (ix2 p k)) = V c main_v66 (ix2 p k)
  refine congrArg (V c main_v66) (funext fun a => Fin.ext ?_)
  match a with
  | ⟨0, _⟩ => show win3_0.index t (0 : Fin 2) * 512 + 1 * p.val = p.val; omega
  | ⟨1, _⟩ => show win3_0.index t (1 : Fin 2) * 128 + 1 * k.val = k.val; omega

/-- The output weights are read whole. -/
theorem read_w (c : Dev nD) (t : Fin cfg3.N) (k : Fin 128) (q : Fin 16) :
    iblk3 V c 1 t (ix2 k q) = V c main_arg12 (ix2 k q) := by
  obtain ⟨-, -, e2, e3, -⟩ := idx_facts t
  show V c main_arg12 (((cfg3.win 1).blk t).view.emb (ix2 k q)) = V c main_arg12 (ix2 k q)
  refine congrArg (V c main_arg12) (funext fun a => Fin.ext ?_)
  match a with
  | ⟨0, _⟩ => show win3_1.index t (0 : Fin 2) * 128 + 1 * k.val = k.val; omega
  | ⟨1, _⟩ => show win3_1.index t (1 : Fin 2) * 16 + 1 * q.val = q.val; omega

/-- The bias row is read whole. -/
theorem read_bias (c : Dev nD) (t : Fin cfg3.N) (q : Fin 16) :
    iblk3 V c 2 t (ix2 (0 : Fin 1) q) = V c main_v67 (ix2 (0 : Fin 1) q) := by
  obtain ⟨-, -, -, -, e4, e5, -⟩ := idx_facts t
  show V c main_v67 (((cfg3.win 2).blk t).view.emb (ix2 (0 : Fin 1) q)) = V c main_v67 (ix2 (0 : Fin 1) q)
  refine congrArg (V c main_v67) (funext fun a => Fin.ext ?_)
  match a with
  | ⟨0, _⟩ => show win3_2.index t (0 : Fin 2) * 1 + 1 * 0 = 0; omega
  | ⟨1, _⟩ => show win3_2.index t (1 : Fin 2) * 16 + 1 * q.val = q.val; omega

/-- What the one point writes back is the whole linear map, of the arrays as the launch finds them. -/
theorem flushed_eq (c : Dev nD) (t : Fin cfg3.N) :
    (dat3 V c).flushed 3 t = ((cfg3.win 3).blk t).view.read (Elt Ideal)
      (linearArr (V c main_v66) (V c main_arg12) (V c main_v67)) := by
  show (cfg3.win 3).cut (grid3.coords t) ((dat3 V c).after 3 t) = _
  rw [after3_3]
  unfold out3_3
  rw [View.canon_unit_zero hz]
  simp only [View.ld_unit_zero (S := S512x128) hz, View.ld_unit_zero (S := S128x16) hz, View.ld_unit_zero (S := S1x16) hz]
  obtain ⟨-, -, -, -, -, -, e6, e7⟩ := idx_facts t
  funext j
  obtain ⟨p, q, rfl⟩ : ∃ (p : Fin 512) (q : Fin 16), j = ix2 p q := ⟨j 0, j 1, eq_ix2 j⟩
  refine (pay_apply (iblk3 V c 0 t) (iblk3 V c 1 t) (iblk3 V c 2 t) p q).trans ?_
  have hr0 : (((cfg3.win 3).blk t).view.emb (ix2 p q)) 0 = p :=
    Fin.ext (by show win3_3.index t (0 : Fin 2) * 512 + 1 * p.val = p.val; omega)
  have hq1 : (((cfg3.win 3).blk t).view.emb (ix2 p q)) 1 = q :=
    Fin.ext (by show win3_3.index t (1 : Fin 2) * 16 + 1 * q.val = q.val; omega)
  show _ = linear (V c main_v66) (V c main_arg12) (fun q => V c main_v67 (ix2 (0 : Fin 1) q))
    ((((cfg3.win 3).blk t).view.emb (ix2 p q)) 0) ((((cfg3.win 3).blk t).view.emb (ix2 p q)) 1)
  rw [hr0, hq1]
  unfold linear
  simp only [read_g V c t, read_w V c t, read_bias V c t]

/-- An index of the result array is in the point's block iff each coordinate is in the block's range. -/
theorem mem_blk (t : Fin cfg3.N) (i : S512x16.Idx) :
    i ∈ ((cfg3.win 3).blk t).view.set ↔ ∀ a : Fin 2, win3_3.index t a * S512x16.size a ≤ (i a).val
      ∧ (i a).val < win3_3.index t a * S512x16.size a + S512x16.size a := by
  show i ∈ ((View.whole main_v68).slice (win3_3.rect t)).set ↔ _
  rw [View.set_slice_whole, Rect.mem_set_unit]
  exact Iff.rfl

/-- The one block covers the result array. -/
theorem cover (i : S512x16.Idx) : ∃ t : Fin cfg3.N, (cfg3.win 3).flush t = true ∧ i ∈ ((cfg3.win 3).blk t).view.set := by
  have hN : grid3.N = 1 := N_3
  have hi0 : (i 0).val < 512 := (i 0).isLt
  have hi1 : (i 1).val < 16 := (i 1).isLt
  let t : Fin cfg3.N := ⟨0, by show 0 < grid3.N; omega⟩
  obtain ⟨-, -, -, -, -, -, e6, e7⟩ := idx_facts t
  refine ⟨t, flush3_3 t, ?_⟩
  rw [mem_blk]
  intro a
  match a with
  | ⟨0, _⟩ => show win3_3.index t (0 : Fin 2) * 512 ≤ (i 0).val ∧ (i 0).val < win3_3.index t (0 : Fin 2) * 512 + 512; omega
  | ⟨1, _⟩ => show win3_3.index t (1 : Fin 2) * 16 ≤ (i 1).val ∧ (i 1).val < win3_3.index t (1 : Fin 2) * 16 + 16; omega

/-- After the launch the result array is the linear map of the arrays as the launch finds them. -/
theorem final (c : Dev nD) :
    (dat3 V c).arrAt 3 cfg3.N = linearArr (V c main_v66) (V c main_arg12) (V c main_v67) :=
  (dat3 V c).arrAt_eq_of_cover 3 _ (fun t _ => flushed_eq V c t) cover

end Cert.KernelIdeal.Head

end
-- ==== Proof.Fold.lean ====
/-
  The kernel program's result as a function of its arguments. The program's buffer contents are folded through its
  segments: a stretch of host operations rewrites the buffers it writes, a kernel launch rewrites its output array, and
  every other buffer keeps its contents. Read along that fold, each layer's output array is the reference's value of
  the same layer: the host stretch before a launch gathers the source rows, sums them onto their target rows and
  multiplies by the reciprocal of the clamped in-degree, which is the reference's quotient by the clamped in-degree;
  the launch then computes the layer on the whole array; and the last stretch pools the nodes of each graph exactly as
  the reference does. The edge lists, the in-degree reciprocal, and the arguments a later layer reads are carried
  unchanged across the launches and stretches that do not write them.
-/
import proofs.«175460_j79869211836878_1_alg».proof.Proof.Gen.KernelIdeal.Frame
import proofs.«175460_j79869211836878_1_alg».proof.Proof.Gen.ReferenceIdeal.Read
import proofs.«175460_j79869211836878_1_alg».proof.Proof.Mean
import proofs.«175460_j79869211836878_1_alg».proof.Proof.Layer
import proofs.«175460_j79869211836878_1_alg».proof.Proof.Region0
import proofs.«175460_j79869211836878_1_alg».proof.Proof.Region1
import proofs.«175460_j79869211836878_1_alg».proof.Proof.Region2
import proofs.«175460_j79869211836878_1_alg».proof.Proof.Region3
import Idealize.ShloMosaic.Lib.StableHlo.Run

set_option maxRecDepth 16384

noncomputable section

namespace Cert.KernelIdeal.Fold

open Cert.KernelIdeal Cert.KernelIdeal.Gen Cert.ReferenceIdeal.Read
open Idealize.ShloMosaic Idealize.ShloMosaic.TcCoe Idealize.SL.Sem Idealize.ShloMosaic.StableHlo
open Cert.Bridge

/-- The reciprocal of the clamped in-degree of every node, as a column: one over the maximum of the number of
    incoming edges and one. -/
def recipCol (x1 : (⟨S2x1600000, .i32⟩ : BufTy).Contents (Elt Ideal)) : (⟨S100000x1, .f32⟩ : BufTy).Contents (Elt Ideal) :=
  broadcastInDim S100000x1 ![0] bcast_S100000_S100000x1_0
    (Host.divf (F := Ideal) (broadcastInDim S100000 ![] bcast_S_S100000 (constant S_ .f32 0x3F800000#32))
      (maximumf (val_main_v17 (F := Ideal) x1) (broadcastInDim S100000 ![] bcast_S_S100000 (constant S_ .f32 0x3F800000#32))))

/-- Summed messages times the reciprocal column, 64 features wide, is the reference's mean of the first layer. -/
theorem mean64 (S : FVec Ideal S100000x64 .f32) (x1 : (⟨S2x1600000, .i32⟩ : BufTy).Contents (Elt Ideal)) :
    mulf S (broadcastInDim S100000x64 ![0, 1] bcast_S100000x1_S100000x64_0_1 (recipCol x1))
      = Host.divf (F := Ideal) S (val_main_v21 (F := Ideal) x1 : FVec Ideal S100000x64 .f32) :=
  Mean.mul_recip_eq_div _ _ _ S (val_main_v17 (F := Ideal) x1 : FVec Ideal S100000 .f32)

/-- The same, 128 features wide, against the second layer's divisor. -/
theorem mean128a (S : FVec Ideal S100000x128 .f32) (x1 : (⟨S2x1600000, .i32⟩ : BufTy).Contents (Elt Ideal)) :
    mulf S (broadcastInDim S100000x128 ![0, 1] bcast_S100000x1_S100000x128_0_1 (recipCol x1))
      = Host.divf (F := Ideal) S (val_main_v47 (F := Ideal) x1 : FVec Ideal S100000x128 .f32) :=
  Mean.mul_recip_eq_div _ _ _ S (val_main_v17 (F := Ideal) x1 : FVec Ideal S100000 .f32)

/-- The same against the third layer's divisor. -/
theorem mean128b (S : FVec Ideal S100000x128 .f32) (x1 : (⟨S2x1600000, .i32⟩ : BufTy).Contents (Elt Ideal)) :
    mulf S (broadcastInDim S100000x128 ![0, 1] bcast_S100000x1_S100000x128_0_1 (recipCol x1))
      = Host.divf (F := Ideal) S (val_main_v73 (F := Ideal) x1 : FVec Ideal S100000x128 .f32) :=
  Mean.mul_recip_eq_div _ _ _ S (val_main_v17 (F := Ideal) x1 : FVec Ideal S100000 .f32)

variable (m : (ℓ : Loc nD τ sig) → Buf (Elt Ideal) ℓ) (ρ : Dev nD → PrngReg) (c : Dev nD)

/-! ## The first layer -/

/-- At the first launch the aggregated features are the reference's mean of the gathered source rows. -/
theorem entry1_agg : V1 m ρ c main_v24 = val_main_v22 (F := Ideal) (m ((c : Thread nD τ).loc main_arg0)) (m ((c : Thread nD τ).loc main_arg1)) := by
  show StableHlo.after hostOps0 (W0 m ρ c) (Proc.devRef .tc main_v24) = _
  dsimp only [hostOps0]
  after_results_simp
  exact mean64 _ (m ((c : Thread nD τ).loc main_arg1))

/-- At the first launch the node features are the argument's. -/
theorem entry1_x : V1 m ρ c main_arg0 = (m ((c : Thread nD τ).loc main_arg0)) := by
  show StableHlo.after hostOps0 (W0 m ρ c) (Proc.devRef .tc main_arg0) = _
  dsimp only [hostOps0]
  after_results <;> rfl

theorem entry1_wl : V1 m ρ c main_arg3 = (m ((c : Thread nD τ).loc main_arg3)) := by
  show StableHlo.after hostOps0 (W0 m ρ c) (Proc.devRef .tc main_arg3) = _
  dsimp only [hostOps0]
  after_results <;> rfl

/-- At the first launch the bias row is the bias reshaped. -/
theorem entry1_b : V1 m ρ c main_v25 = shapeCast S1x128 (m ((c : Thread nD τ).loc main_arg4)) shapeCasts_S128_S1x128 := by
  show StableHlo.after hostOps0 (W0 m ρ c) (Proc.devRef .tc main_v25) = _
  dsimp only [hostOps0]
  after_results <;> rfl

theorem entry1_wr : V1 m ρ c main_arg5 = (m ((c : Thread nD τ).loc main_arg5)) := by
  show StableHlo.after hostOps0 (W0 m ρ c) (Proc.devRef .tc main_arg5) = _
  dsimp only [hostOps0]
  after_results <;> rfl

/-- After the first launch its output array is the reference's first layer. -/
theorem out1 : W2 m ρ c (Proc.devRef .tc main_v26) = val_main_v29 (F := Ideal) (m ((c : Thread nD τ).loc main_arg0)) (m ((c : Thread nD τ).loc main_arg1)) (m ((c : Thread nD τ).loc main_arg3)) (m ((c : Thread nD τ).loc main_arg4)) (m ((c : Thread nD τ).loc main_arg5)) := by
  refine (W2_arr m ρ c 5).trans ((Layer1.final (V1 m ρ) c).trans ?_)
  rw [entry1_agg m ρ c, entry1_x m ρ c, entry1_wl m ρ c, entry1_b m ρ c, entry1_wr m ρ c]
  exact Layer.layer_relu_eq_host (d1 := ![1]) (d2 := ![0, 1]) rfl rfl _ _ _ _ _ _ _ _ _

/-! ## What the first launch leaves alone -/

/-- The source node of every edge. -/
theorem keep2_src : W2 m ρ c (Proc.devRef .tc main_v1) = val_main_v1 (F := Ideal) (m ((c : Thread nD τ).loc main_arg1)) := by
  rw [W2_of_ne m ρ c main_v1 (by decide)]
  show StableHlo.after hostOps0 (W0 m ρ c) (Proc.devRef .tc main_v1) = _
  dsimp only [hostOps0]
  after_results <;> rfl

/-- The target node of every edge. -/
theorem keep2_dst : W2 m ρ c (Proc.devRef .tc main_v3) = val_main_v3 (F := Ideal) (m ((c : Thread nD τ).loc main_arg1)) := by
  rw [W2_of_ne m ρ c main_v3 (by decide)]
  show StableHlo.after hostOps0 (W0 m ρ c) (Proc.devRef .tc main_v3) = _
  dsimp only [hostOps0]
  after_results <;> rfl

/-- The reciprocal column. -/
theorem keep2_recip : W2 m ρ c (Proc.devRef .tc main_v12) = recipCol (m ((c : Thread nD τ).loc main_arg1)) := by
  rw [W2_of_ne m ρ c main_v12 (by decide)]
  show StableHlo.after hostOps0 (W0 m ρ c) (Proc.devRef .tc main_v12) = _
  dsimp only [hostOps0]
  after_results <;> rfl
/-- Argument 2. -/
theorem keep2_arg2 : W2 m ρ c (Proc.devRef .tc main_arg2) = (m ((c : Thread nD τ).loc main_arg2)) := by
  rw [W2_of_ne m ρ c main_arg2 (by decide)]
  show StableHlo.after hostOps0 (W0 m ρ c) (Proc.devRef .tc main_arg2) = _
  dsimp only [hostOps0]
  after_results <;> rfl

/-- Argument 6. -/
theorem keep2_arg6 : W2 m ρ c (Proc.devRef .tc main_arg6) = (m ((c : Thread nD τ).loc main_arg6)) := by
  rw [W2_of_ne m ρ c main_arg6 (by decide)]
  show StableHlo.after hostOps0 (W0 m ρ c) (Proc.devRef .tc main_arg6) = _
  dsimp only [hostOps0]
  after_results <;> rfl

/-- Argument 7. -/
theorem keep2_arg7 : W2 m ρ c (Proc.devRef .tc main_arg7) = (m ((c : Thread nD τ).loc main_arg7)) := by
  rw [W2_of_ne m ρ c main_arg7 (by decide)]
  show StableHlo.after hostOps0 (W0 m ρ c) (Proc.devRef .tc main_arg7) = _
  dsimp only [hostOps0]
  after_results <;> rfl

/-- Argument 8. -/
theorem keep2_arg8 : W2 m ρ c (Proc.devRef .tc main_arg8) = (m ((c : Thread nD τ).loc main_arg8)) := by
  rw [W2_of_ne m ρ c main_arg8 (by decide)]
  show StableHlo.after hostOps0 (W0 m ρ c) (Proc.devRef .tc main_arg8) = _
  dsimp only [hostOps0]
  after_results <;> rfl

/-- Argument 9. -/
theorem keep2_arg9 : W2 m ρ c (Proc.devRef .tc main_arg9) = (m ((c : Thread nD τ).loc main_arg9)) := by
  rw [W2_of_ne m ρ c main_arg9 (by decide)]
  show StableHlo.after hostOps0 (W0 m ρ c) (Proc.devRef .tc main_arg9) = _
  dsimp only [hostOps0]
  after_results <;> rfl

/-- Argument 10. -/
theorem keep2_arg10 : W2 m ρ c (Proc.devRef .tc main_arg10) = (m ((c : Thread nD τ).loc main_arg10)) := by
  rw [W2_of_ne m ρ c main_arg10 (by decide)]
  show StableHlo.after hostOps0 (W0 m ρ c) (Proc.devRef .tc main_arg10) = _
  dsimp only [hostOps0]
  after_results <;> rfl

/-- Argument 11. -/
theorem keep2_arg11 : W2 m ρ c (Proc.devRef .tc main_arg11) = (m ((c : Thread nD τ).loc main_arg11)) := by
  rw [W2_of_ne m ρ c main_arg11 (by decide)]
  show StableHlo.after hostOps0 (W0 m ρ c) (Proc.devRef .tc main_arg11) = _
  dsimp only [hostOps0]
  after_results <;> rfl

/-- Argument 12. -/
theorem keep2_arg12 : W2 m ρ c (Proc.devRef .tc main_arg12) = (m ((c : Thread nD τ).loc main_arg12)) := by
  rw [W2_of_ne m ρ c main_arg12 (by decide)]
  show StableHlo.after hostOps0 (W0 m ρ c) (Proc.devRef .tc main_arg12) = _
  dsimp only [hostOps0]
  after_results <;> rfl

/-- Argument 13. -/
theorem keep2_arg13 : W2 m ρ c (Proc.devRef .tc main_arg13) = (m ((c : Thread nD τ).loc main_arg13)) := by
  rw [W2_of_ne m ρ c main_arg13 (by decide)]
  show StableHlo.after hostOps0 (W0 m ρ c) (Proc.devRef .tc main_arg13) = _
  dsimp only [hostOps0]
  after_results <;> rfl

/-! ## The second layer -/

/-- At the second launch the aggregated features are the reference's mean of the gathered rows of the first layer. -/
theorem entry2_agg : V3 m ρ c main_v38 = val_main_v48 (F := Ideal) (m ((c : Thread nD τ).loc main_arg0)) (m ((c : Thread nD τ).loc main_arg1)) (m ((c : Thread nD τ).loc main_arg3)) (m ((c : Thread nD τ).loc main_arg4)) (m ((c : Thread nD τ).loc main_arg5)) := by
  show StableHlo.after hostOps1 (W2 m ρ c) (Proc.devRef .tc main_v38) = _
  dsimp only [hostOps1]
  after_results_simp
  rw [keep2_src m ρ c, keep2_dst m ρ c, keep2_recip m ρ c, out1 m ρ c]
  exact mean128a _ (m ((c : Thread nD τ).loc main_arg1))

theorem entry2_x : V3 m ρ c main_v26 = val_main_v29 (F := Ideal) (m ((c : Thread nD τ).loc main_arg0)) (m ((c : Thread nD τ).loc main_arg1)) (m ((c : Thread nD τ).loc main_arg3)) (m ((c : Thread nD τ).loc main_arg4)) (m ((c : Thread nD τ).loc main_arg5)) := by
  show StableHlo.after hostOps1 (W2 m ρ c) (Proc.devRef .tc main_v26) = _
  dsimp only [hostOps1]
  after_results
  exact out1 m ρ c

theorem entry2_wl : V3 m ρ c main_arg6 = (m ((c : Thread nD τ).loc main_arg6)) := by
  show StableHlo.after hostOps1 (W2 m ρ c) (Proc.devRef .tc main_arg6) = _
  dsimp only [hostOps1]
  after_results
  exact keep2_arg6 m ρ c

theorem entry2_b : V3 m ρ c main_v39 = shapeCast S1x128 (m ((c : Thread nD τ).loc main_arg7)) shapeCasts_S128_S1x128 := by
  show StableHlo.after hostOps1 (W2 m ρ c) (Proc.devRef .tc main_v39) = _
  dsimp only [hostOps1]
  after_results
  rw [keep2_arg7 m ρ c]
  rfl

theorem entry2_wr : V3 m ρ c main_arg8 = (m ((c : Thread nD τ).loc main_arg8)) := by
  show StableHlo.after hostOps1 (W2 m ρ c) (Proc.devRef .tc main_arg8) = _
  dsimp only [hostOps1]
  after_results
  exact keep2_arg8 m ρ c

/-- After the second launch its output array is the reference's second layer. -/
theorem out2 : W4 m ρ c (Proc.devRef .tc main_v40) = val_main_v55 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) := by
  refine (W4_arr m ρ c 5).trans ((Layer2.final (V3 m ρ) c).trans ?_)
  rw [entry2_agg m ρ c, entry2_x m ρ c, entry2_wl m ρ c, entry2_b m ρ c, entry2_wr m ρ c]
  exact Layer.layer_relu_eq_host (d1 := ![1]) (d2 := ![0, 1]) rfl rfl _ _ _ _ _ _ _ _ _

/-! ## What the second launch leaves alone -/

/-- The source node of every edge. -/
theorem keep4_src : W4 m ρ c (Proc.devRef .tc main_v1) = val_main_v1 (F := Ideal) (m ((c : Thread nD τ).loc main_arg1)) := by
  rw [W4_of_ne m ρ c main_v1 (by decide)]
  show StableHlo.after hostOps1 (W2 m ρ c) (Proc.devRef .tc main_v1) = _
  dsimp only [hostOps1]
  after_results
  exact keep2_src m ρ c

/-- The target node of every edge. -/
theorem keep4_dst : W4 m ρ c (Proc.devRef .tc main_v3) = val_main_v3 (F := Ideal) (m ((c : Thread nD τ).loc main_arg1)) := by
  rw [W4_of_ne m ρ c main_v3 (by decide)]
  show StableHlo.after hostOps1 (W2 m ρ c) (Proc.devRef .tc main_v3) = _
  dsimp only [hostOps1]
  after_results
  exact keep2_dst m ρ c

/-- The reciprocal column. -/
theorem keep4_recip : W4 m ρ c (Proc.devRef .tc main_v12) = recipCol (m ((c : Thread nD τ).loc main_arg1)) := by
  rw [W4_of_ne m ρ c main_v12 (by decide)]
  show StableHlo.after hostOps1 (W2 m ρ c) (Proc.devRef .tc main_v12) = _
  dsimp only [hostOps1]
  after_results
  exact keep2_recip m ρ c

/-- Argument 2. -/
theorem keep4_arg2 : W4 m ρ c (Proc.devRef .tc main_arg2) = (m ((c : Thread nD τ).loc main_arg2)) := by
  rw [W4_of_ne m ρ c main_arg2 (by decide)]
  show StableHlo.after hostOps1 (W2 m ρ c) (Proc.devRef .tc main_arg2) = _
  dsimp only [hostOps1]
  after_results
  exact keep2_arg2 m ρ c

/-- Argument 9. -/
theorem keep4_arg9 : W4 m ρ c (Proc.devRef .tc main_arg9) = (m ((c : Thread nD τ).loc main_arg9)) := by
  rw [W4_of_ne m ρ c main_arg9 (by decide)]
  show StableHlo.after hostOps1 (W2 m ρ c) (Proc.devRef .tc main_arg9) = _
  dsimp only [hostOps1]
  after_results
  exact keep2_arg9 m ρ c

/-- Argument 10. -/
theorem keep4_arg10 : W4 m ρ c (Proc.devRef .tc main_arg10) = (m ((c : Thread nD τ).loc main_arg10)) := by
  rw [W4_of_ne m ρ c main_arg10 (by decide)]
  show StableHlo.after hostOps1 (W2 m ρ c) (Proc.devRef .tc main_arg10) = _
  dsimp only [hostOps1]
  after_results
  exact keep2_arg10 m ρ c

/-- Argument 11. -/
theorem keep4_arg11 : W4 m ρ c (Proc.devRef .tc main_arg11) = (m ((c : Thread nD τ).loc main_arg11)) := by
  rw [W4_of_ne m ρ c main_arg11 (by decide)]
  show StableHlo.after hostOps1 (W2 m ρ c) (Proc.devRef .tc main_arg11) = _
  dsimp only [hostOps1]
  after_results
  exact keep2_arg11 m ρ c

/-- Argument 12. -/
theorem keep4_arg12 : W4 m ρ c (Proc.devRef .tc main_arg12) = (m ((c : Thread nD τ).loc main_arg12)) := by
  rw [W4_of_ne m ρ c main_arg12 (by decide)]
  show StableHlo.after hostOps1 (W2 m ρ c) (Proc.devRef .tc main_arg12) = _
  dsimp only [hostOps1]
  after_results
  exact keep2_arg12 m ρ c

/-- Argument 13. -/
theorem keep4_arg13 : W4 m ρ c (Proc.devRef .tc main_arg13) = (m ((c : Thread nD τ).loc main_arg13)) := by
  rw [W4_of_ne m ρ c main_arg13 (by decide)]
  show StableHlo.after hostOps1 (W2 m ρ c) (Proc.devRef .tc main_arg13) = _
  dsimp only [hostOps1]
  after_results
  exact keep2_arg13 m ρ c

/-! ## The third layer -/

theorem entry3_agg : V5 m ρ c main_v52 = val_main_v74 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) := by
  show StableHlo.after hostOps2 (W4 m ρ c) (Proc.devRef .tc main_v52) = _
  dsimp only [hostOps2]
  after_results_simp
  rw [keep4_src m ρ c, keep4_dst m ρ c, keep4_recip m ρ c, out2 m ρ c]
  exact mean128b _ (m ((c : Thread nD τ).loc main_arg1))

theorem entry3_x : V5 m ρ c main_v40 = val_main_v55 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) := by
  show StableHlo.after hostOps2 (W4 m ρ c) (Proc.devRef .tc main_v40) = _
  dsimp only [hostOps2]
  after_results
  exact out2 m ρ c

theorem entry3_wl : V5 m ρ c main_arg9 = (m ((c : Thread nD τ).loc main_arg9)) := by
  show StableHlo.after hostOps2 (W4 m ρ c) (Proc.devRef .tc main_arg9) = _
  dsimp only [hostOps2]
  after_results
  exact keep4_arg9 m ρ c

theorem entry3_b : V5 m ρ c main_v53 = shapeCast S1x128 (m ((c : Thread nD τ).loc main_arg10)) shapeCasts_S128_S1x128 := by
  show StableHlo.after hostOps2 (W4 m ρ c) (Proc.devRef .tc main_v53) = _
  dsimp only [hostOps2]
  after_results
  rw [keep4_arg10 m ρ c]
  rfl

theorem entry3_wr : V5 m ρ c main_arg11 = (m ((c : Thread nD τ).loc main_arg11)) := by
  show StableHlo.after hostOps2 (W4 m ρ c) (Proc.devRef .tc main_arg11) = _
  dsimp only [hostOps2]
  after_results
  exact keep4_arg11 m ρ c

/-- After the third launch its output array is the reference's third layer. -/
theorem out3 : W6 m ρ c (Proc.devRef .tc main_v54) = val_main_v80 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) := by
  refine (W6_arr m ρ c 5).trans ((Layer3.final (V5 m ρ) c).trans ?_)
  rw [entry3_agg m ρ c, entry3_x m ρ c, entry3_wl m ρ c, entry3_b m ρ c, entry3_wr m ρ c]
  exact Layer.layer_id_eq_host (d1 := ![1]) (d2 := ![0, 1]) rfl rfl _ _ _ _ _ _ _ _

/-! ## What the third launch leaves alone -/

/-- Argument 2. -/
theorem keep6_arg2 : W6 m ρ c (Proc.devRef .tc main_arg2) = (m ((c : Thread nD τ).loc main_arg2)) := by
  rw [W6_of_ne m ρ c main_arg2 (by decide)]
  show StableHlo.after hostOps2 (W4 m ρ c) (Proc.devRef .tc main_arg2) = _
  dsimp only [hostOps2]
  after_results
  exact keep4_arg2 m ρ c

/-- Argument 12. -/
theorem keep6_arg12 : W6 m ρ c (Proc.devRef .tc main_arg12) = (m ((c : Thread nD τ).loc main_arg12)) := by
  rw [W6_of_ne m ρ c main_arg12 (by decide)]
  show StableHlo.after hostOps2 (W4 m ρ c) (Proc.devRef .tc main_arg12) = _
  dsimp only [hostOps2]
  after_results
  exact keep4_arg12 m ρ c

/-- Argument 13. -/
theorem keep6_arg13 : W6 m ρ c (Proc.devRef .tc main_arg13) = (m ((c : Thread nD τ).loc main_arg13)) := by
  rw [W6_of_ne m ρ c main_arg13 (by decide)]
  show StableHlo.after hostOps2 (W4 m ρ c) (Proc.devRef .tc main_arg13) = _
  dsimp only [hostOps2]
  after_results
  exact keep4_arg13 m ρ c

/-! ## The pooled head -/

/-- At the last launch the pooled features are the reference's mean over each graph's nodes. -/
theorem entry4_g : V7 m ρ c main_v66 = val_main_v92 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) := by
  show StableHlo.after hostOps3 (W6 m ρ c) (Proc.devRef .tc main_v66) = _
  dsimp only [hostOps3]
  after_results_simp
  rw [keep6_arg2 m ρ c, out3 m ρ c]
  rfl

theorem entry4_w : V7 m ρ c main_arg12 = (m ((c : Thread nD τ).loc main_arg12)) := by
  show StableHlo.after hostOps3 (W6 m ρ c) (Proc.devRef .tc main_arg12) = _
  dsimp only [hostOps3]
  after_results
  exact keep6_arg12 m ρ c

theorem entry4_b : V7 m ρ c main_v67 = shapeCast S1x16 (m ((c : Thread nD τ).loc main_arg13)) shapeCasts_S16_S1x16 := by
  show StableHlo.after hostOps3 (W6 m ρ c) (Proc.devRef .tc main_v67) = _
  dsimp only [hostOps3]
  after_results
  rw [keep6_arg13 m ρ c]
  rfl

/-- After the last launch the result array is the reference's result. -/
theorem out4 : W8 m ρ c (Proc.devRef .tc main_v68) = val_main_v96 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) := by
  refine (W8_arr m ρ c 3).trans ((Head.final (V7 m ρ) c).trans ?_)
  rw [entry4_g m ρ c, entry4_w m ρ c, entry4_b m ρ c]
  exact Layer.linear_eq_host (d1 := ![1]) (d2 := ![0, 1]) rfl rfl _ _ _ _ _ _

end Cert.KernelIdeal.Fold

end
-- ==== Proof.lean ====
/-
  A three-layer graph network with mean aggregation, a mean pool over each graph and a linear head: the kernel program
  against its reference, on the extended reals.

  Both programs compute, for each layer, at node r and feature q,
      (Σ_k agg[r,k] · Wl[k,q]) + (Σ_k h[r,k] · Wr[k,q]) + b[q]
  where agg[r] is the mean over the edges into r of the source node's row of h, and take the maximum with zero after
  the first two layers; then they average the rows of each graph and apply one more linear map with a bias. They
  differ in three ways, none of which changes a value on the extended reals. The kernel forms the mean by multiplying
  the summed rows with 1 / max(count, 1) where the reference divides by max(count, 1): the divisor is at least one,
  hence not zero, and a · (1 · c⁻¹) = a · c⁻¹. The kernel adds the bias after the second product where the reference
  adds it between the two: addition is commutative and associative. The kernel computes each layer block of rows by
  block of rows, through matrix products into a zero accumulator and after a change of float format that is the
  identity on the extended reals: each block is the restriction of the layer to its rows, and the blocks tile the rows.
  No step needs an entry to be finite, so the precondition is not used by the value claim.
-/
import proofs.«175460_j79869211836878_1_alg».proof.Defs
import proofs.«175460_j79869211836878_1_alg».proof.Proof.Gen.Kernel
import proofs.«175460_j79869211836878_1_alg».proof.Proof.Gen.Kernel.Skeleton
import proofs.«175460_j79869211836878_1_alg».proof.Proof.Gen.Kernel.Launch
import proofs.«175460_j79869211836878_1_alg».proof.Proof.Gen.Kernel.Points
import proofs.«175460_j79869211836878_1_alg».proof.Proof.Gen.Kernel.Frame
import proofs.«175460_j79869211836878_1_alg».proof.Proof.Gen.KernelIdeal
import proofs.«175460_j79869211836878_1_alg».proof.Proof.Gen.KernelIdeal.Skeleton
import proofs.«175460_j79869211836878_1_alg».proof.Proof.Gen.KernelIdeal.Launch
import proofs.«175460_j79869211836878_1_alg».proof.Proof.Gen.KernelIdeal.Points
import proofs.«175460_j79869211836878_1_alg».proof.Proof.Gen.KernelIdeal.Frame
import proofs.«175460_j79869211836878_1_alg».proof.Proof.Gen.ReferenceIdeal
import proofs.«175460_j79869211836878_1_alg».proof.Proof.Gen.ReferenceIdeal.Run
import proofs.«175460_j79869211836878_1_alg».proof.Proof.Gen.ReferenceIdeal.Read
import proofs.«175460_j79869211836878_1_alg».proof.Proof.Gen.Pre_finite_inputs
import proofs.«175460_j79869211836878_1_alg».proof.Proof.KernelRun
import proofs.«175460_j79869211836878_1_alg».proof.Proof.Fold
import Idealize.ShloMosaic.Adequacy
import Idealize.ShloMosaic.Init

noncomputable section

namespace Cert.Proof

open Idealize.ShloMosaic Idealize.ShloMosaic.TcCoe Idealize.SL.Sem

/-- The word-level kernel program terminates without a fault and leaves its arguments unchanged. -/
theorem frame_kernel : Cert.frame_Kernel := fun m ρ _ => Cert.Kernel.Gen.frame m ρ

/-- So does the kernel program read on the extended reals. -/
theorem frame_kernel_ideal : Cert.frame_KernelIdeal := fun m ρ _ => Cert.KernelIdeal.Gen.frame m ρ

/-- So does the reference: its run, with the result forgotten. -/
theorem frame_reference : Cert.frame_ReferenceIdeal := fun m ρ _ =>
  (θ_run Cert.ReferenceIdeal.defs _ _).mono (fun _ h c => (h c).2) (Cert.ReferenceIdeal.Value.run (F := Ideal) m ρ)

/-- From memories that agree on the arguments both programs end with the reference's last stage of the kernel
    program's arguments: the kernel program by its fold through launches and host stretches, the reference by its
    run, whose arguments are the kernel program's. -/
theorem algebraic : Cert.algebraic_KernelIdeal_ReferenceIdeal := by
  intro m ρ m' ρ' _ hagree
  refine ⟨_, (θ_run Cert.KernelIdeal.defs _ _).mono
    (fun r h c => ⟨(h c).1.trans (Cert.KernelIdeal.Fold.out4 m ρ c), (h c).2⟩) (Cert.KernelIdeal.Result.run_result m ρ), ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v96_eq]
  obtain ⟨h0, h1, h2, h3, h4, h5, h6, h7, h8, h9, h10, h11, h12, h13⟩ := hagree c
  rw [h0, h1, h2, h3, h4, h5, h6, h7, h8, h9, h10, h11, h12, h13]

theorem claim : Cert.Claim := ⟨Cert.Kernel.Gen.facts, Cert.KernelIdeal.Gen.facts, Cert.ReferenceIdeal.Gen.facts, Cert.Pre_finite_inputs.Gen.facts,
  frame_kernel, frame_kernel_ideal, frame_reference, trivial, algebraic⟩

end Cert.Proof

end
